-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "neg_fill" .f32 0xD1649249#32 ((-576460752303423488 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8192x512 .f32) (main_arg1 : FVec F S8192x512 .f32) (main_arg2 : IVec S8192x8192 32) (main_arg3 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S8192x512 : Shape := ⟨2, ![8192, 512]⟩
abbrev S8192x8192 : Shape := ⟨2, ![8192, 8192]⟩
abbrev S512x512 : Shape := ⟨2, ![512, 512]⟩
abbrev S1024x512 : Shape := ⟨2, ![1024, 512]⟩
abbrev S1024x1 : Shape := ⟨2, ![1024, 1]⟩
abbrev S1024 : Shape := ⟨1, ![1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .i32⟩
  | .hbm, ⟨3, _⟩ => ⟨S512x512, .f32⟩
  | .hbm, ⟨4, _⟩ => ⟨S8192x512, .bf16⟩
  | .hbm, ⟨5, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S8192x512, .bf16⟩
  | .local _ .vmem, ⟨4, _⟩ => ⟨S1024x512, .i32⟩
  | .local _ .vmem, ⟨5, _⟩ => ⟨S1024x512, .i32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x1, .f32⟩
  | .local _ .vmem, ⟨10, _⟩ => ⟨S1024x1, .f32⟩
  | .local _ .vmem, ⟨11, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c15_i32 : BitVec 32 := 15#32
  let v45 : BitVec 1 := Scalar.cmpi .eq arg1 c15_i32
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S512x512_S512x512 : S512x512.ShapeCasts S512x512
  reduces_S1024x512_S1024 : S1024x512.Reduces [1] S1024
  shapeCasts_S1024_S1024x1 : S1024.ShapeCasts S1024x1
  broadcasts_S1024x1_S1024x512 : S1024x1.Broadcasts S1024x512
  dot_S1024x512_S512x512_S1024x512_1_0_0_1_n_n_wf : DotDims.WF S1024x512 S512x512 S1024x512 [1] [0] [0] [1] [] []
  dot_S1024x512_S512x512_S1024x512_1_1_0_0_n_n_wf : DotDims.WF S1024x512 S512x512 S1024x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x512.size a ≤ S8192x512.size a
  hwx0_2 : ∀ i : grid0.Coords, EltTy.bits .bf16 = 32 ∨ (Rect.block (s := S8192x512) S8192x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x8192.size a
  hwx0_3 : ∀ i : grid0.Coords, EltTy.bits .i32 = 32 ∨ (Rect.block (s := S8192x8192) S1024x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .f32 = 32 ∨ (Rect.block (s := S8192x512) S1024x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512x8192 : Shape := ⟨2, ![512, 8192]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .i32⟩
  | .hbm, ⟨3, _⟩ => ⟨S512x512, .f32⟩
  | .hbm, ⟨4, _⟩ => ⟨S8192x512, .f32⟩
  | .hbm, ⟨5, _⟩ => ⟨S512x8192, .f32⟩
  | .hbm, ⟨6, _⟩ => ⟨S8192x8192, .f32⟩
  | .hbm, ⟨7, _⟩ => ⟨S_, .i32⟩
  | .hbm, ⟨8, _⟩ => ⟨S8192x8192, .i32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x512_S512x512_S8192x512_1_0_0_1_n_n_wf : DotDims.WF S8192x512 S512x512 S8192x512 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Pieces.lean ====
/-
  What one grid point leaves in the four scratch buffers it carries to the next point, and in the output block, as
  values: each is the payload of the point's last store into that buffer, over the blocks the point loads — the query
  block, the weight, the 512 key/value rows the point's column index selects, the mask block — and over what the
  point before left in the scratch buffers. At the first column block of a row tile the scratch is first reset
  (projected and scaled anchor, running maximum -∞, denominator 0, numerator 0) and the same update then runs over the
  reset values; at the last column block the output block is the numerator over the denominator.
-/
import proofs.«103291_j85418309583433_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F] [Named F]

theorem hz : (![0, 0] : Fin 2 → Nat) = fun _ => 0 := funext fun a => by fin_cases a <;> rfl

/-- The 512 key/value rows a point reads: rows 512·j … 512·j + 511 of the resident array, j the point's column index. -/
def kv (i : grid0.Coords) (x2 : Vec F S8192x512 .bf16) : Vec F S512x512 .bf16 :=
  View.ld x2 (Rect.unit (s := S8192x512) (k0_off1 i) S512x512.size (k0_off1_inb i))

/-- The running maximum after a block: the old one against the block's row maxima. -/
def newM (kvb : Vec F S512x512 .bf16) (a : Vec F S1024x512 .bf16) (adj : Vec F S1024x512 .i32) (mo : Vec F S1024x1 .f32) :
    Vec F S1024x1 .f32 := k0_pay2 (k0_pay10 kvb a adj mo)
/-- The denominator after a block: the old one rescaled, plus the block's row sums of exponentials. -/
def newL (kvb : Vec F S512x512 .bf16) (a : Vec F S1024x512 .bf16) (adj : Vec F S1024x512 .i32) (mo lo : Vec F S1024x1 .f32) :
    Vec F S1024x1 .f32 := k0_pay13 kvb a adj mo mo lo
/-- The numerator after a block: the old one rescaled, plus the block's exponentials times its value rows. -/
def newAcc (kvb : Vec F S512x512 .bf16) (a : Vec F S1024x512 .bf16) (adj : Vec F S1024x512 .i32) (mo : Vec F S1024x1 .f32)
    (acco : Vec F S1024x512 .f32) : Vec F S1024x512 .f32 :=
  k0_pay1 (k0_pay8 kvb) (k0_pay11 kvb a adj mo mo) (k0_pay12 kvb a adj mo) acco

variable (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S8192x512 .bf16) (harg4 : arg4.IsWhole) (arg5 : Memref sig .tc .vmem S1024x512 .i32) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x512 .f32) (harg10 : arg10.IsWhole)
variable (x0 : Vec F S1024x512 .f32) (x1 : Vec F S512x512 .f32) (x2 : Vec F S8192x512 .bf16) (x3 : Vec F S1024x512 .i32)
variable (xs0 : Vec F S1024x512 .bf16) (xs1 : Vec F S1024x1 .f32) (xs2 : Vec F S1024x1 .f32) (xs3 : Vec F S1024x512 .f32)

/-! ## The first column block of a row tile -/

/-- The anchor scratch after the reset: the query block projected by the weight and scaled. -/
theorem anchor_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 = k0_pay4 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

/-- The running maximum after the first block, from -∞. -/
theorem max_A (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 = newM (kv i x2) (k0_pay4 x0 x1) x3 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

/-- The denominator after the first block, from 0. -/
theorem den_A (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 x3 = newL (kv i x2) (k0_pay4 x0 x1) x3 k0_pay5 k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

/-- The numerator after the first block, from 0. -/
theorem num_A (hc0 : cond0_0 i) (hc1 : ¬cond0_1 i) :
    sout0_A_3 c i arg2 harg2 arg3 harg3 arg4 harg4 arg5 harg5 arg6 harg6 arg7 harg7 arg8 harg8 arg9 harg9 arg10 harg10 hc0 hc1 x0 x1 x2 x3 = newAcc (kv i x2) (k0_pay4 x0 x1) x3 k0_pay5 k0_pay7 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

/-! ## A middle column block -/

theorem anchor_B (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 xs0 xs1 xs2 xs3 = xs0 := rfl
/-- The running maximum after a middle block. -/
theorem max_B (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 xs0 xs1 xs2 xs3 = newM (kv i x2) xs0 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

/-- The denominator after a middle block. -/
theorem den_B (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 x3 xs0 xs1 xs2 xs3 = newL (kv i x2) xs0 x3 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

/-- The numerator after a middle block. -/
theorem num_B (hc0 : ¬cond0_0 i) (hc1 : ¬cond0_1 i) :
    sout0_B_3 c i arg2 harg2 arg3 harg3 arg4 harg4 arg5 harg5 arg6 harg6 arg7 harg7 arg8 harg8 arg9 harg9 arg10 harg10 hc0 hc1 x0 x1 x2 x3 xs0 xs1 xs2 xs3 = newAcc (kv i x2) xs0 x3 xs1 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

/-! ## The last column block -/

theorem anchor_C (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 xs0 xs1 xs2 xs3 = xs0 := rfl
/-- The running maximum after the last block. -/
theorem max_C (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 x3 xs0 xs1 xs2 xs3 = newM (kv i x2) xs0 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

/-- The denominator after the last block. -/
theorem den_C (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 x3 xs0 xs1 xs2 xs3 = newL (kv i x2) xs0 x3 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

/-- The numerator after the last block. -/
theorem num_C (hc0 : ¬cond0_0 i) (hc1 : cond0_1 i) :
    sout0_C_3 c i arg2 harg2 arg3 harg3 arg4 harg4 arg5 harg5 arg6 harg6 arg7 harg7 arg8 harg8 arg9 harg9 arg10 harg10 hc0 hc1 x0 x1 x2 x3 xs0 xs1 xs2 xs3 = newAcc (kv i x2) xs0 x3 xs1 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

/-- The output block: the final numerator over the final denominator. -/
theorem out_C (hc0 : ¬cond0_0 i) (hc1 : cond0_1 i) :
    out0_C_4 c i arg2 harg2 arg3 harg3 arg4 harg4 arg5 harg5 arg6 harg6 arg7 harg7 arg8 harg8 arg9 harg9 arg10 harg10 hc0 hc1 x0 x1 x2 x3 xs0 xs1 xs2 xs3 = k0_pay3 (newAcc (kv i x2) xs0 x3 xs1 xs3) (newL (kv i x2) xs0 x3 xs1 xs2) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_run_names
  simp only [View.readAt_eq_ld, harg2.read_unread, harg3.read_unread, harg4.read_unread, harg5.read_unread, harg6.read_unread, harg7.read_unread, harg8.read_unread, harg9.read_unread, harg10.read_unread, View.ld_unit_zero (S := S1024x512) hz, View.ld_unit_zero (S := S512x512) hz, View.ld_unit_zero (S := S1024x1) hz, View.readCov_unit_zero (S := S1024x512) _ hz, View.readCov_unit_zero (S := S1024x1) _ hz, View.canon_cons_unit_zero (S := S1024x512) hz, View.canon_cons_unit_zero (S := S1024x1) hz, View.canon_unit_zero (S := S1024x512) hz, View.canon_unit_zero (S := S1024x1) hz]
  all_goals first | rfl | (unfold newM newL newAcc kv; rfl)

end Cert.KernelIdeal.Pieces

end
-- ==== Proof.Pay.lean ====
/-
  The body's arithmetic read entry by entry over the extended reals. Every payload of the kernel body is a pure
  function of the blocks it loads; here each is read at one index. A change of float format is the identity, a matrix
  product into a zero accumulator is the plain sum of products over the contracted axis (row r of the left factor
  against column g of the right one; for the score product, row r of the anchor against ROW q of the key block, both
  factors contracted on their last axis), a lane reduction is the sum, or the maximum folded from -∞, over the 512
  lanes of the row, and the keep-dimension forms — a [1024] result viewed as a [1024,1] column, a column spread over
  512 lanes — read the column's entry of the same row.
-/
import proofs.«103291_j85418309583433_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Finset

variable {α : Type}

/-! ## Keep-dimension layouts -/

/-- A length-1024 vector viewed as a [1024,1] column reads, at row r, its entry r. -/
theorem col_of_vec (v : S1024.Idx → α) (h : S1024.ShapeCasts S1024x1) (r : Fin 1024) (z : Fin 1) :
    shapeCast S1024x1 v h (ix2 r z) = v (ix1 r) :=
  shapeCast_apply v h (ix2 r z) (ix1 r) (by
    rw [Shape.rowMajor_val_one, Shape.rowMajor_val_two]
    show r.val = r.val * 1 + z.val
    have := z.isLt; omega)

/-- A [1024,1] column spread over 512 lanes reads, at (r, q), the column's entry of row r. -/
theorem lanes_of_col (v : S1024x1.Idx → α) (h : S1024x1.Broadcasts S1024x512) (r : Fin 1024) (q : Fin 512) :
    broadcastTo S1024x512 v h (ix2 r q) = v (ix2 r (0 : Fin 1)) :=
  broadcastTo_apply v h (ix2 r q) (ix2 r (0 : Fin 1)) (fun a => match a with
    | ⟨0, _⟩ => by show r.val = if (1024 : Nat) = 1 then 0 else r.val; rw [if_neg (by decide)]
    | ⟨1, _⟩ => by show (0 : Nat) = if (1 : Nat) = 1 then 0 else q.val; rw [if_pos rfl])

/-! ## The two contractions -/

/-- The dimension numbers of a row-by-column product [1024,512]·[512,512]. -/
abbrev dRC := dot_S1024x512_S512x512_S1024x512_1_0_0_1_n_n
/-- The dimension numbers of a row-by-row product [1024,512]·[512,512]ᵀ. -/
abbrev dRR := dot_S1024x512_S512x512_S1024x512_1_1_0_0_n_n

/-- Where the two products read their factors: output (r, c) and contraction position k. -/
theorem dRC_l0 (i : S1024x512.Idx) (q : dRC.contr.Idx) : (dRC.lhsIdx i q 0).val = (i 0).val := by
  unfold DotDims.lhsIdx
  rw [dif_neg (show ¬(0 : Fin S1024x512.rank) ∈ dRC.lhsBatch by decide), dif_pos (show (0 : Fin S1024x512.rank) ∈ dRC.lhsNonContracting by decide)]
  rfl
theorem dRC_l1 (i : S1024x512.Idx) (q : dRC.contr.Idx) : (dRC.lhsIdx i q 1).val = (q ⟨0, by decide⟩).val :=
  dRC.lhsIdx_val_of_single rfl i q
theorem dRC_r0 (i : S1024x512.Idx) (q : dRC.contr.Idx) : (dRC.rhsIdx i q 0).val = (q ⟨0, by decide⟩).val :=
  dRC.rhsIdx_val_of_single rfl i q
theorem dRC_r1 (i : S1024x512.Idx) (q : dRC.contr.Idx) : (dRC.rhsIdx i q 1).val = (i 1).val := by
  unfold DotDims.rhsIdx
  rw [dif_neg (show ¬(1 : Fin S512x512.rank) ∈ dRC.rhsBatch by decide), dif_pos (show (1 : Fin S512x512.rank) ∈ dRC.rhsNonContracting by decide)]
  rfl
theorem dRR_l0 (i : S1024x512.Idx) (q : dRR.contr.Idx) : (dRR.lhsIdx i q 0).val = (i 0).val := by
  unfold DotDims.lhsIdx
  rw [dif_neg (show ¬(0 : Fin S1024x512.rank) ∈ dRR.lhsBatch by decide), dif_pos (show (0 : Fin S1024x512.rank) ∈ dRR.lhsNonContracting by decide)]
  rfl
theorem dRR_l1 (i : S1024x512.Idx) (q : dRR.contr.Idx) : (dRR.lhsIdx i q 1).val = (q ⟨0, by decide⟩).val :=
  dRR.lhsIdx_val_of_single rfl i q
theorem dRR_r0 (i : S1024x512.Idx) (q : dRR.contr.Idx) : (dRR.rhsIdx i q 0).val = (i 1).val := by
  unfold DotDims.rhsIdx
  rw [dif_neg (show ¬(0 : Fin S512x512.rank) ∈ dRR.rhsBatch by decide), dif_pos (show (0 : Fin S512x512.rank) ∈ dRR.rhsNonContracting by decide)]
  rfl
theorem dRR_r1 (i : S1024x512.Idx) (q : dRR.contr.Idx) : (dRR.rhsIdx i q 1).val = (q ⟨0, by decide⟩).val :=
  dRR.rhsIdx_val_of_single rfl i q

/-- A row-by-column product into zero, at (r, g): the sum over k of left (r, k) times right (k, g). -/
theorem mulRC_apply {φ₁ φ₂ : FTy} (L : FVec Ideal S1024x512 φ₁) (R : FVec Ideal S512x512 φ₂) (r : Fin 1024) (g : Fin 512) :
    matmul dRC none L R (constant S1024x512 .f32 0x00000000#32) (ix2 r g) = ∑ k : Fin 512, L (ix2 r k) * R (ix2 k g) := by
  refine (Ideal.matmul_constant_zero_apply dRC none L R (ix2 r g)).trans ?_
  rw [← Equiv.sum_comp (contrEquiv1 dRC 512 rfl rfl).symm]
  refine Finset.sum_congr rfl fun k _ => ?_
  have hk := contrEquiv1_symm_val dRC 512 rfl rfl k
  have el : dRC.lhsIdx (ix2 r g) ((contrEquiv1 dRC 512 rfl rfl).symm k) = ix2 r k := funext fun a => Fin.ext (by
    match a with
    | ⟨0, _⟩ => exact dRC_l0 _ _
    | ⟨1, _⟩ => exact (dRC_l1 _ _).trans hk)
  have er : dRC.rhsIdx (ix2 r g) ((contrEquiv1 dRC 512 rfl rfl).symm k) = ix2 k g := funext fun a => Fin.ext (by
    match a with
    | ⟨0, _⟩ => exact (dRC_r0 _ _).trans hk
    | ⟨1, _⟩ => exact dRC_r1 _ _)
  rw [el, er]

/-- A row-by-row product into zero, at (r, q): the sum over g of left (r, g) times right (q, g). -/
theorem mulRR_apply {φ₁ φ₂ : FTy} (L : FVec Ideal S1024x512 φ₁) (R : FVec Ideal S512x512 φ₂) (r : Fin 1024) (q : Fin 512) :
    matmul dRR none L R (constant S1024x512 .f32 0x00000000#32) (ix2 r q) = ∑ g : Fin 512, L (ix2 r g) * R (ix2 q g) := by
  refine (Ideal.matmul_constant_zero_apply dRR none L R (ix2 r q)).trans ?_
  rw [← Equiv.sum_comp (contrEquiv1 dRR 512 rfl rfl).symm]
  refine Finset.sum_congr rfl fun k _ => ?_
  have hk := contrEquiv1_symm_val dRR 512 rfl rfl k
  have el : dRR.lhsIdx (ix2 r q) ((contrEquiv1 dRR 512 rfl rfl).symm k) = ix2 r k := funext fun a => Fin.ext (by
    match a with
    | ⟨0, _⟩ => exact dRR_l0 _ _
    | ⟨1, _⟩ => exact (dRR_l1 _ _).trans hk)
  have er : dRR.rhsIdx (ix2 r q) ((contrEquiv1 dRR 512 rfl rfl).symm k) = ix2 q k := funext fun a => Fin.ext (by
    match a with
    | ⟨0, _⟩ => exact dRR_r0 _ _
    | ⟨1, _⟩ => exact (dRR_r1 _ _).trans hk)
  rw [el, er]

/-! ## The two lane reductions -/

theorem ofBits_neg_inf : Ideal.ofBits .f32 0xFF800000#32 = ⊥ := by simp [Ideal.ofBits, Ideal.ieee]

/-- The maximum over the 512 lanes of row r, folded from -∞. -/
theorem rowmax_apply (src : FVec Ideal S1024x512 .f32) (h : S1024x512.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r)
      = (univ : Finset (Fin 512)).fold max (⊥ : EReal) (fun q => src (ix2 r q)) := by
  refine (Ideal.multiReduction_maximumf_single src 0xFF800000#32 h hφ hacc (ix1 r)).trans ?_
  rw [show FloatOps.ofBits (F := Ideal) .f32 0xFF800000#32 = (⊥ : EReal) from ofBits_neg_inf]
  refine congrArg (fun f => (univ : Finset (Fin 512)).fold max (⊥ : EReal) f) (funext fun q => ?_)
  exact congrArg src (funext fun a => Fin.ext (by match a with | ⟨0, _⟩ => rfl | ⟨1, _⟩ => rfl))

/-- The sum over the 512 lanes of row r. -/
theorem rowsum_apply (src : FVec Ideal S1024x512 .f32) (h : S1024x512.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ q : Fin 512, src (ix2 r q) := by
  refine (Ideal.multiReduction_add_single src 0x00000000#32 h hφ hacc (ix1 r)).trans ?_
  refine Finset.sum_congr rfl fun q _ => ?_
  exact congrArg src (funext fun a => Fin.ext (by match a with | ⟨0, _⟩ => rfl | ⟨1, _⟩ => rfl))

/-! ## The payloads -/

/-- The temperature's reciprocal as the body names it. -/
abbrev invT : EReal := Named.named (F := Ideal) κ "inv_temp" (φ := .f32) 0x41649249#32
/-- The mask fill as the body names it. -/
abbrev fill : EReal := Named.named (F := Ideal) κ "neg_fill" (φ := .f32) 0xD1649249#32

/-- The scaled anchor: the query row's projection by the weight, times the temperature's reciprocal. -/
theorem anchor_apply (x0 : Vec Ideal S1024x512 .f32) (x1 : Vec Ideal S512x512 .f32) (r : Fin 1024) (g : Fin 512) :
    k0_pay4 x0 x1 (ix2 r g) = (∑ k : Fin 512, x0 (ix2 r k) * x1 (ix2 k g)) * invT := by
  unfold k0_pay4
  rw [shapeCast_self]
  exact congrArg (· * invT) (mulRC_apply (truncf .bf16 x0 bitsLt_bf16_f32) (truncf .bf16 x1 bitsLt_bf16_f32) r g)

/-- The masked score: the anchor row against key row q where the mask is set, the fill elsewhere. -/
theorem score_apply (v6 : Vec Ideal S512x512 .bf16) (v8 : Vec Ideal S1024x512 .bf16) (v10 : Vec Ideal S1024x512 .i32)
    (r : Fin 1024) (q : Fin 512) :
    k0_pay9 v6 v8 v10 (ix2 r q)
      = Scalar.select (IntOp.cmpi .sgt (v10 (ix2 r q)) 0#32) (∑ g : Fin 512, v8 (ix2 r g) * v6 (ix2 q g)) fill := by
  unfold k0_pay9 k0_pay8
  rw [shapeCast_self]
  exact congrArg (fun x => Scalar.select (IntOp.cmpi .sgt (v10 (ix2 r q)) 0#32) x fill) (mulRR_apply v8 v6 r q)

/-- The new running maximum of row r: the old one against the maximum of the row's 512 scores. -/
theorem max_apply (v6 : Vec Ideal S512x512 .bf16) (v8 : Vec Ideal S1024x512 .bf16) (v10 : Vec Ideal S1024x512 .i32)
    (mo : Vec Ideal S1024x1 .f32) (r : Fin 1024) :
    k0_pay10 v6 v8 v10 mo (ix2 r (0 : Fin 1))
      = max (mo (ix2 r (0 : Fin 1))) ((univ : Finset (Fin 512)).fold max (⊥ : EReal) (fun q => k0_pay9 v6 v8 v10 (ix2 r q))) := by
  unfold k0_pay10
  refine congrArg (max (mo (ix2 r (0 : Fin 1)))) ?_
  refine (col_of_vec _ _ r 0).trans ?_
  exact rowmax_apply _ _ _ _ r

/-- The rescaling factor of row r: e to the old maximum minus the new one. -/
theorem scale_apply (v6 : Vec Ideal S512x512 .bf16) (v8 : Vec Ideal S1024x512 .bf16) (v10 : Vec Ideal S1024x512 .i32)
    (mo mo' : Vec Ideal S1024x1 .f32) (r : Fin 1024) :
    k0_pay11 v6 v8 v10 mo mo' (ix2 r (0 : Fin 1))
      = Ideal.exp (mo' (ix2 r (0 : Fin 1)) - k0_pay10 v6 v8 v10 mo (ix2 r (0 : Fin 1))) := rfl

/-- The block's weights: e to the score minus the row's new maximum. -/
theorem weight_apply (v6 : Vec Ideal S512x512 .bf16) (v8 : Vec Ideal S1024x512 .bf16) (v10 : Vec Ideal S1024x512 .i32)
    (mo : Vec Ideal S1024x1 .f32) (r : Fin 1024) (q : Fin 512) :
    k0_pay12 v6 v8 v10 mo (ix2 r q)
      = Ideal.exp (k0_pay9 v6 v8 v10 (ix2 r q) - k0_pay10 v6 v8 v10 mo (ix2 r (0 : Fin 1))) := by
  unfold k0_pay12
  exact congrArg (fun x => Ideal.exp (k0_pay9 v6 v8 v10 (ix2 r q) - x)) (lanes_of_col _ _ r q)

/-- The new denominator of row r: the old one rescaled plus the row's 512 weights. -/
theorem den_apply (v6 : Vec Ideal S512x512 .bf16) (v8 : Vec Ideal S1024x512 .bf16) (v10 : Vec Ideal S1024x512 .i32)
    (mo mo' lo : Vec Ideal S1024x1 .f32) (r : Fin 1024) :
    k0_pay13 v6 v8 v10 mo mo' lo (ix2 r (0 : Fin 1))
      = k0_pay11 v6 v8 v10 mo mo' (ix2 r (0 : Fin 1)) * lo (ix2 r (0 : Fin 1)) + ∑ q : Fin 512, k0_pay12 v6 v8 v10 mo (ix2 r q) := by
  unfold k0_pay13
  rw [shapeCast_self]
  refine congrArg (k0_pay11 v6 v8 v10 mo mo' (ix2 r (0 : Fin 1)) * lo (ix2 r (0 : Fin 1)) + ·) ?_
  refine (col_of_vec _ _ r 0).trans ?_
  exact rowsum_apply _ _ _ _ r

/-- The new numerator at (r, f): the old one rescaled plus the row's weights against column f of the value block. -/
theorem num_apply (v7 : FVec Ideal S512x512 .bf16) (a : FVec Ideal S1024x1 .f32) (p : FVec Ideal S1024x512 .f32)
    (acco : Vec Ideal S1024x512 .f32) (r : Fin 1024) (f : Fin 512) :
    k0_pay1 v7 a p acco (ix2 r f)
      = a (ix2 r (0 : Fin 1)) * acco (ix2 r f) + ∑ q : Fin 512, p (ix2 r q) * v7 (ix2 q f) := by
  unfold k0_pay1
  rw [shapeCast_self]
  show broadcastTo S1024x512 a broadcasts_S1024x1_S1024x512 (ix2 r f) * acco (ix2 r f)
      + matmul dRC none (truncf .bf16 p bitsLt_bf16_f32) v7 (constant S1024x512 .f32 0x00000000#32) (ix2 r f) = _
  rw [lanes_of_col, mulRC_apply]
  rfl

/-- The output at (r, f): the numerator over the row's denominator. -/
theorem out_apply (acc : Vec Ideal S1024x512 .f32) (l : Vec Ideal S1024x1 .f32) (r : Fin 1024) (f : Fin 512) :
    k0_pay3 acc l (ix2 r f) = Ideal.div (acc (ix2 r f)) (l (ix2 r (0 : Fin 1))) := by
  unfold k0_pay3
  exact congrArg (Ideal.div (acc (ix2 r f))) (lanes_of_col _ _ r f)

/-- The reset values: -∞ for the running maximum, 0 for the denominator and the numerator. -/
theorem reset_max_apply (j : S1024x1.Idx) : k0_pay5 (F := Ideal) j = ⊥ := by
  unfold k0_pay5; rw [shapeCast_self]; exact ofBits_neg_inf
theorem reset_den_apply (j : S1024x1.Idx) : k0_pay6 (F := Ideal) j = 0 := by
  unfold k0_pay6; rw [shapeCast_self]; exact Ideal.ofBits_zero_f32
theorem reset_num_apply (j : S1024x512.Idx) : k0_pay7 (F := Ideal) j = 0 := by
  unfold k0_pay7; rw [shapeCast_self]; exact Ideal.ofBits_zero_f32

/-- The key/value block passes through its same-shape cast unchanged. -/
theorem kv_cast (v6 : Vec Ideal S512x512 .bf16) : k0_pay8 v6 = v6 := by
  unfold k0_pay8; exact shapeCast_self _ _

/-- The stored running maximum is the new running maximum. -/
theorem max_cast (v18 : FVec Ideal S1024x1 .f32) : k0_pay2 v18 = v18 := by
  unfold k0_pay2; exact shapeCast_self _ _

end Cert.KernelIdeal.Pay

end
-- ==== Proof.Attn.lean ====
/-
  Masked softmax attention over the reals, and the streaming ("online") evaluation of it.

  For one query row with logits x₀ … x₈₁₉₁ and one value column v₀ … v₈₁₉₁ the attention output is the softmax-weighted
  average  (∑ₘ e^{xₘ} vₘ) / (∑ₘ e^{xₘ})  (wavg). Subtracting any real shift μ from every logit multiplies numerator and
  denominator by e^{-μ} and leaves the quotient unchanged (wavg_shift): the textbook form shifts by the row maximum, a
  streaming form by whatever running maximum it holds, and both are wavg. A streaming evaluation keeps, after the first
  K logits, a shift μ, the partial denominator Z μ K = ∑_{m<K} e^{xₘ-μ} and numerator Nm μ K = ∑_{m<K} e^{xₘ-μ} vₘ; taking
  512 more logits under a new shift μ' rescales what it holds by e^{μ-μ'} and adds the new terms (Z_step, Nm_step).
  The rest of the module moves real sums, products, maxima and exponentials in and out of the extended reals.
-/
import Idealize.ShloMosaic.PureOps.Ideal.Laws

noncomputable section

namespace Cert.Attn

open Finset Idealize.ShloMosaic

/-- The temperature the reference divides by: the binary fraction its single-precision literal 0.07 holds. -/
def D : ℝ := 9395241 / 134217728

theorem D_ne : D ≠ 0 := by unfold D; norm_num

/-- The anchor projection xx · w. -/
def proj (xx : Fin 8192 → Fin 512 → ℝ) (w : Fin 512 → Fin 512 → ℝ) (n : Fin 8192) (g : Fin 512) : ℝ :=
  ∑ k, xx n k * w k g

/-- The logit of query n against key m: the projected anchor's inner product with the key row where the mask is set,
    the fill -2³² elsewhere, over the temperature. -/
def logit (xx : Fin 8192 → Fin 512 → ℝ) (w : Fin 512 → Fin 512 → ℝ) (inp : Fin 8192 → Fin 512 → ℝ)
    (msk : Fin 8192 → Fin 8192 → Bool) (n m : Fin 8192) : ℝ :=
  (if msk n m then ∑ g, proj xx w n g * inp m g else -4294967296) / D

/-- The softmax-weighted average of v under logits x. -/
def wavg (x v : Fin 8192 → ℝ) : ℝ := (∑ m, Real.exp (x m) * v m) / ∑ m, Real.exp (x m)

/-- The attention output at query n, feature f. -/
def out (xx : Fin 8192 → Fin 512 → ℝ) (w : Fin 512 → Fin 512 → ℝ) (inp : Fin 8192 → Fin 512 → ℝ)
    (msk : Fin 8192 → Fin 8192 → Bool) (n : Fin 8192) (f : Fin 512) : ℝ :=
  wavg (logit xx w inp msk n) (fun m => inp m f)

/-- Any common shift of the logits leaves the weighted average unchanged. -/
theorem wavg_shift (x v : Fin 8192 → ℝ) (μ : ℝ) :
    (∑ m, Real.exp (x m - μ) * v m) / (∑ m, Real.exp (x m - μ)) = wavg x v := by
  have h1 : ∑ m, Real.exp (x m - μ) * v m = Real.exp (-μ) * ∑ m, Real.exp (x m) * v m := by
    rw [mul_sum]; refine sum_congr rfl fun m _ => ?_
    rw [sub_eq_add_neg, Real.exp_add]; ring
  have h2 : ∑ m, Real.exp (x m - μ) = Real.exp (-μ) * ∑ m, Real.exp (x m) := by
    rw [mul_sum]; refine sum_congr rfl fun m _ => ?_
    rw [sub_eq_add_neg, Real.exp_add]; ring
  rw [h1, h2, wavg, mul_div_mul_left _ _ (Real.exp_ne_zero _)]

/-- The textbook form — each weight normalised first, then the weighted sum — is the same quotient. -/
theorem sum_normalised (x v : Fin 8192 → ℝ) (μ : ℝ) :
    ∑ m, Real.exp (x m - μ) / (∑ m', Real.exp (x m' - μ)) * v m = wavg x v := by
  rw [← wavg_shift x v μ, sum_div]
  refine sum_congr rfl fun m _ => ?_
  rw [div_mul_eq_mul_div]

/-- A row of 8192 numbers continued by zeros. -/
def ext (x : Fin 8192 → ℝ) (m : ℕ) : ℝ := if h : m < 8192 then x ⟨m, h⟩ else 0

theorem ext_val (x : Fin 8192 → ℝ) (m : Fin 8192) : ext x m.val = x m := by
  unfold ext; rw [dif_pos m.isLt]

/-- The partial denominator after the first K logits under the shift μ. -/
def Z (x : ℕ → ℝ) (μ : ℝ) (K : ℕ) : ℝ := ∑ m ∈ range K, Real.exp (x m - μ)
/-- The partial numerator after the first K logits under the shift μ. -/
def Nm (x v : ℕ → ℝ) (μ : ℝ) (K : ℕ) : ℝ := ∑ m ∈ range K, Real.exp (x m - μ) * v m

theorem Z_zero (x : ℕ → ℝ) (μ : ℝ) : Z x μ 0 = 0 := by unfold Z; simp
theorem Nm_zero (x v : ℕ → ℝ) (μ : ℝ) : Nm x v μ 0 = 0 := by unfold Nm; simp

/-- 512 more logits under a new shift: the held denominator rescaled, plus the new terms. -/
theorem Z_step (x : ℕ → ℝ) (μ μ' : ℝ) (K : ℕ) :
    Z x μ' (K + 512) = Real.exp (μ - μ') * Z x μ K + ∑ q : Fin 512, Real.exp (x (K + q.val) - μ') := by
  unfold Z
  rw [sum_range_add, Finset.sum_range (fun q => Real.exp (x (K + q) - μ')), mul_sum]
  congr 1
  refine sum_congr rfl fun m _ => ?_
  rw [← Real.exp_add]; congr 1; ring

/-- The same for the numerator. -/
theorem Nm_step (x v : ℕ → ℝ) (μ μ' : ℝ) (K : ℕ) :
    Nm x v μ' (K + 512) = Real.exp (μ - μ') * Nm x v μ K + ∑ q : Fin 512, Real.exp (x (K + q.val) - μ') * v (K + q.val) := by
  unfold Nm
  rw [sum_range_add, Finset.sum_range (fun q => Real.exp (x (K + q) - μ') * v (K + q)), mul_sum]
  congr 1
  refine sum_congr rfl fun m _ => ?_
  rw [← mul_assoc, ← Real.exp_add]; congr 2; ring

/-- The first 512 logits from nothing held. -/
theorem Z_first (x : ℕ → ℝ) (μ' : ℝ) : Z x μ' 512 = ∑ q : Fin 512, Real.exp (x (0 + q.val) - μ') := by
  unfold Z; rw [Finset.sum_range (fun q => Real.exp (x q - μ'))]; simp
theorem Nm_first (x v : ℕ → ℝ) (μ' : ℝ) :
    Nm x v μ' 512 = ∑ q : Fin 512, Real.exp (x (0 + q.val) - μ') * v (0 + q.val) := by
  unfold Nm; rw [Finset.sum_range (fun q => Real.exp (x q - μ') * v q)]; simp

/-- After all 8192 logits the streaming quotient is the weighted average, whatever shift it ended with. -/
theorem stream_done (x v : Fin 8192 → ℝ) (μ : ℝ) : Nm (ext x) (ext v) μ 8192 / Z (ext x) μ 8192 = wavg x v := by
  unfold Nm Z
  rw [Finset.sum_range (fun m => Real.exp (ext x m - μ) * ext v m), Finset.sum_range (fun m => Real.exp (ext x m - μ))]
  simp only [ext_val]
  exact wavg_shift x v μ

theorem Z_pos (x : ℕ → ℝ) (μ : ℝ) (K : ℕ) (hK : 0 < K) : 0 < Z x μ K := by
  unfold Z
  exact sum_pos (fun m _ => Real.exp_pos _) (nonempty_range_iff.mpr (by omega))

/-! ## In and out of the extended reals -/

/-- A finite real sum, coerced, is the sum of the coerced terms. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [sum_insert ha, sum_insert ha, EReal.coe_add, ih]

/-- The maximum of finitely many reals, folded from -∞, is a real as soon as there is one of them. -/
theorem fold_max_coe {ι : Type*} (s : Finset ι) (hs : s.Nonempty) (f : ι → ℝ) :
    ∃ r : ℝ, s.fold max (⊥ : EReal) (fun i => (f i : EReal)) = (r : EReal) := by
  classical
  revert hs
  refine Finset.induction_on s (fun h => absurd h (by simp)) ?_
  intro a s ha ih _
  rw [fold_insert ha]
  by_cases hs : s = ∅
  · subst hs
    exact ⟨f a, by rw [fold_empty]; exact max_eq_left bot_le⟩
  · obtain ⟨r, hr⟩ := ih (nonempty_iff_ne_empty.mpr hs)
    exact ⟨max (f a) r, by rw [hr]; exact (EReal.coe_strictMono.monotone.map_max).symm⟩

theorem exp_coe_sub (a b : ℝ) : Ideal.exp ((a : EReal) - (b : EReal)) = ((Real.exp (a - b) : ℝ) : EReal) := by
  rw [← EReal.coe_sub, Ideal.exp_coe]

theorem exp_bot_sub (b : ℝ) : Ideal.exp ((⊥ : EReal) - (b : EReal)) = 0 := by
  rw [sub_eq_add_neg, ← EReal.coe_neg, EReal.bot_add]; rfl

/-- Division of reals by a nonzero real, in the extended reals. -/
theorem div_coe_coe (a b : ℝ) (hb : b ≠ 0) : Ideal.div (a : EReal) (b : EReal) = ((a / b : ℝ) : EReal) := by
  rw [Ideal.div_coe hb, ← EReal.coe_mul, mul_one_div]

end Cert.Attn

end
-- ==== Proof.Stream.lean ====
/-
  One row of one block, over the reals. When the anchor row, the 512 key/value rows of the block and what the
  scratch held are real numbers, so is everything the block's update computes: the scores are the masked, scaled inner
  products (the named reciprocal of the temperature is 1/D exactly, the named fill is -2³²/D exactly, so a score
  is the reference's logit), the new running maximum is a real μ', the scale factor is e^{μ-μ'} (0 from the reset,
  where the old maximum is -∞), and the new denominator and numerator are the old ones times that factor plus the
  block's ∑ e^{s-μ'} and ∑ e^{s-μ'}·v.
-/
import proofs.«103291_j85418309583433_2_alg».proof.Proof.Pieces
import proofs.«103291_j85418309583433_2_alg».proof.Proof.Pay
import proofs.«103291_j85418309583433_2_alg».proof.Proof.Attn

noncomputable section

namespace Cert.KernelIdeal.Stream

open Cert.KernelIdeal Cert.KernelIdeal.Gen Cert.KernelIdeal.Pieces Cert.KernelIdeal.Pay Cert.Attn
open Idealize.ShloMosaic Idealize.ShloMosaic.ValueIdx Finset

/-- The named reciprocal of the temperature is 1/D. -/
theorem invT_eq : Pay.invT = ((1 / D : ℝ) : EReal) := by
  have h : Pay.invT = ((134217728 / 9395241 : ℝ) : EReal) := IdealRules.named_const.ideal_named_scalar _ _ _ _ rfl
  rw [h]; congr 1; unfold D; norm_num

/-- The named fill is the reference's fill -2³² over D. -/
theorem fill_eq : Pay.fill = ((-4294967296 / D : ℝ) : EReal) := by
  have h : Pay.fill = ((-576460752303423488 / 9395241 : ℝ) : EReal) := IdealRules.named_const.ideal_named_scalar _ _ _ _ rfl
  rw [h]; congr 1; unfold D; norm_num

theorem select_coe (cnd : BitVec 1) (x y : ℝ) :
    Scalar.select cnd (x : EReal) (y : EReal) = ((if cnd = 1#1 then x else y : ℝ) : EReal) := by
  unfold Scalar.select
  by_cases h : cnd = 1#1
  · have h' : cnd = 1 := h
    rw [if_pos h', if_pos h]
  · have h' : ¬cnd = 1 := h
    rw [if_neg h', if_neg h]

/-- The scaled anchor of a real query row under a real weight: its projection over D. -/
theorem anchor_real (x0 : Vec Ideal S1024x512 .f32) (x1 : Vec Ideal S512x512 .f32) (r : Fin 1024) (g : Fin 512)
    (qr : Fin 512 → ℝ) (wr : Fin 512 → Fin 512 → ℝ)
    (h0 : ∀ k, x0 (ix2 r k) = (qr k : EReal)) (h1 : ∀ k g, x1 (ix2 k g) = (wr k g : EReal)) :
    k0_pay4 x0 x1 (ix2 r g) = (((∑ k, qr k * wr k g) / D : ℝ) : EReal) := by
  rw [anchor_apply, invT_eq]
  simp only [h0, h1, ← EReal.coe_mul, ← coe_sum]
  congr 1
  rw [mul_one_div]

/-- A score of a real anchor row against a real key row: the masked inner product over D. -/
theorem score_real (kvb : Vec Ideal S512x512 .bf16) (a : Vec Ideal S1024x512 .bf16) (adjb : Vec Ideal S1024x512 .i32)
    (r : Fin 1024) (q : Fin 512) (pr : Fin 512 → ℝ) (kr : Fin 512 → Fin 512 → ℝ)
    (ha : ∀ g, a (ix2 r g) = ((pr g / D : ℝ) : EReal)) (hk : ∀ q g, kvb (ix2 q g) = (kr q g : EReal)) :
    k0_pay9 kvb a adjb (ix2 r q)
      = (((if IntOp.cmpi .sgt (adjb (ix2 r q)) 0#32 = 1#1 then ∑ g, pr g * kr q g else -4294967296) / D : ℝ) : EReal) := by
  rw [score_apply, fill_eq]
  simp only [ha, hk, ← EReal.coe_mul, ← coe_sum]
  rw [select_coe]
  congr 1
  by_cases h : IntOp.cmpi .sgt (adjb (ix2 r q)) 0#32 = 1#1
  · rw [if_pos h, if_pos h, sum_div]
    refine sum_congr rfl fun g _ => ?_
    ring
  · rw [if_neg h, if_neg h]

variable (kvb : Vec Ideal S512x512 .bf16) (a : Vec Ideal S1024x512 .bf16) (adjb : Vec Ideal S1024x512 .i32)
variable (mo lo : Vec Ideal S1024x1 .f32) (acco : Vec Ideal S1024x512 .f32)

/-- One row through one block, from real scratch contents. -/
theorem step_row (r : Fin 1024) (s : Fin 512 → ℝ) (u : Fin 512 → Fin 512 → ℝ)
    (hs : ∀ q, k0_pay9 kvb a adjb (ix2 r q) = (s q : EReal)) (hu : ∀ q f, kvb (ix2 q f) = (u q f : EReal))
    (μo Zo : ℝ) (No : Fin 512 → ℝ)
    (hm : mo (ix2 r (0 : Fin 1)) = (μo : EReal)) (hl : lo (ix2 r (0 : Fin 1)) = (Zo : EReal))
    (hacc : ∀ f, acco (ix2 r f) = (No f : EReal)) :
    ∃ μn : ℝ, newM kvb a adjb mo (ix2 r (0 : Fin 1)) = (μn : EReal)
      ∧ newL kvb a adjb mo lo (ix2 r (0 : Fin 1)) = ((Real.exp (μo - μn) * Zo + ∑ q, Real.exp (s q - μn) : ℝ) : EReal)
      ∧ ∀ f, newAcc kvb a adjb mo acco (ix2 r f)
          = ((Real.exp (μo - μn) * No f + ∑ q, Real.exp (s q - μn) * u q f : ℝ) : EReal) := by
  obtain ⟨ρ, hρ⟩ := fold_max_coe (univ : Finset (Fin 512)) univ_nonempty s
  have hmax : k0_pay10 kvb a adjb mo (ix2 r (0 : Fin 1)) = ((max μo ρ : ℝ) : EReal) := by
    rw [max_apply, hm]
    simp only [hs]
    rw [hρ]
    exact (EReal.coe_strictMono.monotone.map_max).symm
  refine ⟨max μo ρ, ?_, ?_, ?_⟩
  · unfold newM; rw [max_cast]; exact hmax
  · unfold newL
    rw [den_apply, scale_apply, hmax, hm, hl]
    simp only [weight_apply, hs, hmax, exp_coe_sub]
    rw [← EReal.coe_mul, ← coe_sum, ← EReal.coe_add]
  · intro f
    unfold newAcc
    rw [num_apply, kv_cast, scale_apply, hmax, hm, hacc]
    simp only [weight_apply, hs, hmax, hu, exp_coe_sub, ← EReal.coe_mul]
    rw [← coe_sum, ← EReal.coe_add]

/-- One row through the first block, from the reset contents: maximum -∞, denominator and numerator 0. -/
theorem step_row_first (r : Fin 1024) (s : Fin 512 → ℝ) (u : Fin 512 → Fin 512 → ℝ)
    (hs : ∀ q, k0_pay9 kvb a adjb (ix2 r q) = (s q : EReal)) (hu : ∀ q f, kvb (ix2 q f) = (u q f : EReal))
    (hm : mo (ix2 r (0 : Fin 1)) = ⊥) (hl : lo (ix2 r (0 : Fin 1)) = 0) (hacc : ∀ f, acco (ix2 r f) = 0) :
    ∃ μn : ℝ, newM kvb a adjb mo (ix2 r (0 : Fin 1)) = (μn : EReal)
      ∧ newL kvb a adjb mo lo (ix2 r (0 : Fin 1)) = ((∑ q, Real.exp (s q - μn) : ℝ) : EReal)
      ∧ ∀ f, newAcc kvb a adjb mo acco (ix2 r f) = ((∑ q, Real.exp (s q - μn) * u q f : ℝ) : EReal) := by
  obtain ⟨ρ, hρ⟩ := fold_max_coe (univ : Finset (Fin 512)) univ_nonempty s
  have hmax : k0_pay10 kvb a adjb mo (ix2 r (0 : Fin 1)) = (ρ : EReal) := by
    rw [max_apply, hm]
    simp only [hs]
    rw [hρ]
    exact max_eq_right bot_le
  refine ⟨ρ, ?_, ?_, ?_⟩
  · unfold newM; rw [max_cast]; exact hmax
  · unfold newL
    rw [den_apply, scale_apply, hmax, hm, hl, exp_bot_sub, zero_mul, zero_add]
    simp only [weight_apply, hs, hmax, exp_coe_sub]
    rw [← coe_sum]
  · intro f
    unfold newAcc
    rw [num_apply, kv_cast, scale_apply, hmax, hm, hacc, exp_bot_sub, zero_mul, zero_add]
    simp only [weight_apply, hs, hmax, hu, exp_coe_sub, ← EReal.coe_mul]
    rw [← coe_sum]

/-- The output entry: real numerator over real positive denominator. -/
theorem out_real (acc : Vec Ideal S1024x512 .f32) (l : Vec Ideal S1024x1 .f32) (r : Fin 1024) (f : Fin 512) (Nr Zr : ℝ)
    (hZ : Zr ≠ 0) (hacc : acc (ix2 r f) = (Nr : EReal)) (hl : l (ix2 r (0 : Fin 1)) = (Zr : EReal)) :
    k0_pay3 acc l (ix2 r f) = ((Nr / Zr : ℝ) : EReal) := by
  rw [out_apply, hacc, hl, div_coe_coe _ _ hZ]

end Cert.KernelIdeal.Stream

end
-- ==== Proof.Blocks.lean ====
/-
  The blocks a grid point reads, as entries of the argument arrays, and one row's update at that point.
  The grid is 8 row tiles by 16 column blocks, point t at tile t / 16 and block t % 16. The query block holds rows
  1024·(t/16) … of the first argument, the weight block is the whole weight, the resident key/value array is the second
  argument (the host's change of format before the call is the identity on extended reals) of which the point reads rows
  512·(t%16) …, and the mask block holds rows 1024·(t/16) …, columns 512·(t%16) … of the mask. Over real argument arrays a
  row's scores at the point are therefore the reference's logits of that query against keys 512·(t%16) … 512·(t%16)+511,
  and the update carries the row's streaming state (shift, partial denominator and numerator) from 512·(t%16) keys to
  512·(t%16) + 512.
-/
import proofs.«103291_j85418309583433_2_alg».proof.Proof.Stream
import proofs.«103291_j85418309583433_2_alg».proof.Proof.Gen.KernelIdeal.Frame
import Idealize.ShloMosaic.Lib.StableHlo.Run

noncomputable section

namespace Cert.KernelIdeal.Rows

open Cert.KernelIdeal Cert.KernelIdeal.Gen Cert.KernelIdeal.Pieces Cert.KernelIdeal.Pay Cert.KernelIdeal.Stream Cert.Attn
open Idealize.ShloMosaic Idealize.ShloMosaic.TcCoe Idealize.ShloMosaic.ValueIdx Idealize.ShloMosaic.StableHlo Idealize.SL.Sem Finset

variable (m : (ℓ : Loc nD τ sig) → Buf (Elt Ideal) ℓ) (c : Dev nD)

/-- The printed index maps and the key-row offset, decided over the 128 grid points. -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = t.val % 16
    ∧ win0_4.index t (0 : Fin 2) = t.val / 16 ∧ win0_4.index t (1 : Fin 2) = 0
    ∧ k0_off1 (grid0.coords t) (0 : Fin 2) = 512 * (t.val % 16) ∧ k0_off1 (grid0.coords t) (1 : Fin 2) = 0 :=
  (by decide +kernel : ∀ t : Fin grid0.N, _)

/-- The resident key/value array is the second argument: the format change before the call is the identity. -/
theorem V_keys : (V m c main_v0 : S8192x512.Idx → EReal) = m ((c : Thread nD τ).loc main_arg1) := by
  dsimp only [V, hostOps0]; after_results; rfl

/-- The query block at point t: rows 1024·(t/16) … of the first argument. -/
theorem blk_query (t : Fin cfg0.N) (r : Fin 1024) (k : Fin 512) (n' : Fin 8192) (hn : n'.val = 1024 * (t.val / 16) + r.val) :
    (iblk m c 0 t : Vec Ideal S1024x512 .f32) (ix2 r k) = m ((c : Thread nD τ).loc main_arg0) (ix2 n' k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = n'.val; rw [e0]; omega
  | ⟨1, _⟩ => show win0_0.index t (1 : Fin 2) * 512 + 1 * k.val = k.val; rw [e1]; omega

/-- The weight block: the whole weight. -/
theorem blk_weight (t : Fin cfg0.N) (k g : Fin 512) :
    (iblk m c 1 t : Vec Ideal S512x512 .f32) (ix2 k g) = m ((c : Thread nD τ).loc main_arg3) (ix2 k g) := by
  obtain ⟨-, -, e0, e1, -⟩ := idx_facts t
  show V m c main_arg3 (((cfg0.win 1).blk t).view.emb (ix2 k g)) = _
  rw [V_main_arg3]
  refine congrArg _ (funext fun a => Fin.ext ?_)
  match a with
  | ⟨0, _⟩ => show win0_1.index t (0 : Fin 2) * 512 + 1 * k.val = k.val; rw [e0]; omega
  | ⟨1, _⟩ => show win0_1.index t (1 : Fin 2) * 512 + 1 * g.val = g.val; rw [e1]; omega

/-- The resident key/value block: the whole second argument. -/
theorem blk_keys (t : Fin cfg0.N) (n' : Fin 8192) (g : Fin 512) :
    (iblk m c 2 t : Vec Ideal S8192x512 .bf16) (ix2 n' g) = m ((c : Thread nD τ).loc main_arg1) (ix2 n' g) := by
  obtain ⟨-, -, -, -, e0, e1, -⟩ := idx_facts t
  show V m c main_v0 (((cfg0.win 2).blk t).view.emb (ix2 n' g)) = _
  rw [show (V m c main_v0 : S8192x512.Idx → EReal) = m ((c : Thread nD τ).loc main_arg1) from V_keys m c]
  refine congrArg _ (funext fun a => Fin.ext ?_)
  match a with
  | ⟨0, _⟩ => show win0_2.index t (0 : Fin 2) * 8192 + 1 * n'.val = n'.val; rw [e0]; omega
  | ⟨1, _⟩ => show win0_2.index t (1 : Fin 2) * 512 + 1 * g.val = g.val; rw [e1]; omega

/-- The mask block at point t: rows 1024·(t/16) …, columns 512·(t%16) … of the mask. -/
theorem blk_mask (t : Fin cfg0.N) (r : Fin 1024) (q : Fin 512) (n' m' : Fin 8192)
    (hn : n'.val = 1024 * (t.val / 16) + r.val) (hm : m'.val = 512 * (t.val % 16) + q.val) :
    (iblk m c 3 t : Vec Ideal S1024x512 .i32) (ix2 r q) = m ((c : Thread nD τ).loc main_arg2) (ix2 n' m') := by
  obtain ⟨-, -, -, -, -, -, e0, e1, -⟩ := idx_facts t
  show V m c main_arg2 (((cfg0.win 3).blk t).view.emb (ix2 r q)) = _
  rw [V_main_arg2]
  refine congrArg _ (funext fun a => Fin.ext ?_)
  match a with
  | ⟨0, _⟩ => show win0_3.index t (0 : Fin 2) * 1024 + 1 * r.val = n'.val; rw [e0]; omega
  | ⟨1, _⟩ => show win0_3.index t (1 : Fin 2) * 512 + 1 * q.val = m'.val; rw [e1]; omega

/-- The 512 key/value rows point t reads: rows 512·(t%16) … of the second argument. -/
theorem kv_keys (t : Fin cfg0.N) (q g : Fin 512) (m' : Fin 8192) (hm : m'.val = 512 * (t.val % 16) + q.val) :
    kv (grid0.coords t) (iblk m c 2 t) (ix2 q g) = m ((c : Thread nD τ).loc main_arg1) (ix2 m' g) := by
  obtain ⟨-, -, -, -, -, -, -, -, -, -, e0, e1⟩ := idx_facts t
  refine Eq.trans ?_ (blk_keys m c t m' g)
  unfold kv
  show (iblk m c 2 t : Vec Ideal S8192x512 .bf16) _ = (iblk m c 2 t : Vec Ideal S8192x512 .bf16) (ix2 m' g)
  refine congrArg _ (funext fun a => Fin.ext ?_)
  match a with
  | ⟨0, _⟩ => show k0_off1 (grid0.coords t) (0 : Fin 2) + 1 * q.val = m'.val; rw [e0]; omega
  | ⟨1, _⟩ => show k0_off1 (grid0.coords t) (1 : Fin 2) + 1 * g.val = g.val; rw [e1]; omega

/-! ## Real argument arrays -/

/-- The three float arguments hold real numbers. -/
structure RealData (xx : Fin 8192 → Fin 512 → ℝ) (w : Fin 512 → Fin 512 → ℝ) (inp : Fin 8192 → Fin 512 → ℝ) : Prop where
  h0 : ∀ n k, m ((c : Thread nD τ).loc main_arg0) (ix2 n k) = (xx n k : EReal)
  h1 : ∀ n g, m ((c : Thread nD τ).loc main_arg1) (ix2 n g) = (inp n g : EReal)
  h3 : ∀ k g, m ((c : Thread nD τ).loc main_arg3) (ix2 k g) = (w k g : EReal)

/-- Where the mask is set: its entry positive. -/
def msk (n m' : Fin 8192) : Bool := decide (IntOp.cmpi .sgt (m ((c : Thread nD τ).loc main_arg2) (ix2 n m')) 0#32 = 1#1)

/-- The query row that row r of point t's tile is. -/
def rowOf (t : ℕ) (r : Fin 1024) : Fin 8192 := ⟨(1024 * (t / 16) + r.val) % 8192, Nat.mod_lt _ (by decide)⟩

theorem rowOf_val (t : Fin cfg0.N) (r : Fin 1024) : (rowOf t.val r).val = 1024 * (t.val / 16) + r.val := by
  have hN : t.val < 128 := lt_of_lt_of_eq t.isLt (show cfg0.N = 128 from N_0)
  have := r.isLt
  exact Nat.mod_eq_of_lt (by omega)

variable {xx : Fin 8192 → Fin 512 → ℝ} {w : Fin 512 → Fin 512 → ℝ} {inp : Fin 8192 → Fin 512 → ℝ}

/-- The anchor row a reset leaves: the query row's projection over D. -/
theorem anchor_row (hd : RealData m c xx w inp) (t : Fin cfg0.N) (r : Fin 1024) (g : Fin 512) :
    k0_pay4 (iblk m c 0 t) (iblk m c 1 t) (ix2 r g) = ((proj xx w (rowOf t.val r) g / D : ℝ) : EReal) :=
  anchor_real (iblk m c 0 t) (iblk m c 1 t) r g (xx (rowOf t.val r)) w
    (fun k => (blk_query m c t r k (rowOf t.val r) (rowOf_val t r)).trans (hd.h0 _ _))
    (fun k g => (blk_weight m c t k g).trans (hd.h3 _ _))

theorem key_lt (t : Fin cfg0.N) (q : Fin 512) : 512 * (t.val % 16) + q.val < 8192 := by
  have := q.isLt; omega

/-- The value rows of the point's block, read through the zero-continued columns. -/
theorem values_row (hd : RealData m c xx w inp) (t : Fin cfg0.N) (q f : Fin 512) :
    kv (grid0.coords t) (iblk m c 2 t) (ix2 q f) = ((ext (fun m' => inp m' f) (512 * (t.val % 16) + q.val) : ℝ) : EReal) := by
  unfold Attn.ext
  rw [dif_pos (key_lt t q)]
  exact (kv_keys m c t q f ⟨_, key_lt t q⟩ rfl).trans (hd.h1 _ _)

/-- A row's scores at point t are its logits against keys 512·(t%16) … -/
theorem scores_row (hd : RealData m c xx w inp) (t : Fin cfg0.N) (a : Vec Ideal S1024x512 .bf16) (r : Fin 1024) (q : Fin 512)
    (ha : ∀ g, a (ix2 r g) = ((proj xx w (rowOf t.val r) g / D : ℝ) : EReal)) :
    k0_pay9 (kv (grid0.coords t) (iblk m c 2 t)) a (iblk m c 3 t) (ix2 r q)
      = ((ext (logit xx w inp (msk m c) (rowOf t.val r)) (512 * (t.val % 16) + q.val) : ℝ) : EReal) := by
  rw [score_real (kv (grid0.coords t) (iblk m c 2 t)) a (iblk m c 3 t) r q (proj xx w (rowOf t.val r))
    (fun q' g => ext (fun m' => inp m' g) (512 * (t.val % 16) + q'.val)) ha (fun q' g => values_row m c hd t q' g)]
  rw [blk_mask m c t r q (rowOf t.val r) ⟨_, key_lt t q⟩ (rowOf_val t r) rfl]
  unfold Attn.ext
  rw [dif_pos (key_lt t q)]
  simp only [dif_pos (key_lt t q)]
  unfold logit msk
  simp only [decide_eq_true_eq]

/-- One row through point t's block from a real state over the first 512·(t%16) keys. -/
theorem advance_row (hd : RealData m c xx w inp) (t : Fin cfg0.N) (a : Vec Ideal S1024x512 .bf16)
    (mo lo : Vec Ideal S1024x1 .f32) (acco : Vec Ideal S1024x512 .f32) (r : Fin 1024) (μo : ℝ)
    (ha : ∀ g, a (ix2 r g) = ((proj xx w (rowOf t.val r) g / D : ℝ) : EReal))
    (hm : mo (ix2 r (0 : Fin 1)) = (μo : EReal))
    (hl : lo (ix2 r (0 : Fin 1)) = ((Z (ext (logit xx w inp (msk m c) (rowOf t.val r))) μo (512 * (t.val % 16)) : ℝ) : EReal))
    (hacc : ∀ f, acco (ix2 r f)
      = ((Nm (ext (logit xx w inp (msk m c) (rowOf t.val r))) (ext (fun m' => inp m' f)) μo (512 * (t.val % 16)) : ℝ) : EReal)) :
    ∃ μn : ℝ, newM (kv (grid0.coords t) (iblk m c 2 t)) a (iblk m c 3 t) mo (ix2 r (0 : Fin 1)) = (μn : EReal)
      ∧ newL (kv (grid0.coords t) (iblk m c 2 t)) a (iblk m c 3 t) mo lo (ix2 r (0 : Fin 1))
          = ((Z (ext (logit xx w inp (msk m c) (rowOf t.val r))) μn (512 * (t.val % 16) + 512) : ℝ) : EReal)
      ∧ ∀ f, newAcc (kv (grid0.coords t) (iblk m c 2 t)) a (iblk m c 3 t) mo acco (ix2 r f)
          = ((Nm (ext (logit xx w inp (msk m c) (rowOf t.val r))) (ext (fun m' => inp m' f)) μn (512 * (t.val % 16) + 512) : ℝ) : EReal) := by
  obtain ⟨μn, e1, e2, e3⟩ := step_row (kv (grid0.coords t) (iblk m c 2 t)) a (iblk m c 3 t) mo lo acco r
    (fun q => ext (logit xx w inp (msk m c) (rowOf t.val r)) (512 * (t.val % 16) + q.val))
    (fun q f => ext (fun m' => inp m' f) (512 * (t.val % 16) + q.val))
    (fun q => scores_row m c hd t a r q ha) (fun q f => values_row m c hd t q f) μo _ _ hm hl hacc
  refine ⟨μn, e1, ?_, fun f => ?_⟩
  · rw [e2, Z_step _ μo μn]
  · rw [e3 f, Nm_step _ _ μo μn]

/-- One row through the first block of its tile, from the reset. -/
theorem start_row (hd : RealData m c xx w inp) (t : Fin cfg0.N) (h0 : t.val % 16 = 0) (a : Vec Ideal S1024x512 .bf16)
    (mo lo : Vec Ideal S1024x1 .f32) (acco : Vec Ideal S1024x512 .f32) (r : Fin 1024)
    (ha : ∀ g, a (ix2 r g) = ((proj xx w (rowOf t.val r) g / D : ℝ) : EReal))
    (hm : mo (ix2 r (0 : Fin 1)) = ⊥) (hl : lo (ix2 r (0 : Fin 1)) = 0) (hacc : ∀ f, acco (ix2 r f) = 0) :
    ∃ μn : ℝ, newM (kv (grid0.coords t) (iblk m c 2 t)) a (iblk m c 3 t) mo (ix2 r (0 : Fin 1)) = (μn : EReal)
      ∧ newL (kv (grid0.coords t) (iblk m c 2 t)) a (iblk m c 3 t) mo lo (ix2 r (0 : Fin 1))
          = ((Z (ext (logit xx w inp (msk m c) (rowOf t.val r))) μn (512 * (t.val % 16) + 512) : ℝ) : EReal)
      ∧ ∀ f, newAcc (kv (grid0.coords t) (iblk m c 2 t)) a (iblk m c 3 t) mo acco (ix2 r f)
          = ((Nm (ext (logit xx w inp (msk m c) (rowOf t.val r))) (ext (fun m' => inp m' f)) μn (512 * (t.val % 16) + 512) : ℝ) : EReal) := by
  obtain ⟨μn, e1, e2, e3⟩ := step_row_first (kv (grid0.coords t) (iblk m c 2 t)) a (iblk m c 3 t) mo lo acco r
    (fun q => ext (logit xx w inp (msk m c) (rowOf t.val r)) (512 * (t.val % 16) + q.val))
    (fun q f => ext (fun m' => inp m' f) (512 * (t.val % 16) + q.val))
    (fun q => scores_row m c hd t a r q ha) (fun q f => values_row m c hd t q f) hm hl hacc
  have hK : 512 * (t.val % 16) = 0 := by omega
  refine ⟨μn, e1, ?_, fun f => ?_⟩
  · rw [e2, hK, Nat.zero_add, Z_first]
  · rw [e3 f, hK, Nat.zero_add, Nm_first]

end Cert.KernelIdeal.Rows

end
-- ==== Proof.Invariant.lean ====
/-
  What the four scratch buffers hold after every grid point, by induction along the grid, and what the point that ends
  a row tile stores. After point t — row tile t/16, column block t%16 — the anchor scratch holds the tile's projected
  query rows over D, and for every row r of the tile there is a real shift μ such that the running-maximum scratch
  holds μ, the denominator scratch ∑ e^{x-μ} and the numerator scratch ∑ e^{x-μ}·v over the first 512·(t%16)+512 keys,
  x the row's logits. The first block of a tile starts this from the reset; every later block advances it. At the last
  block all 8192 keys are in, the stored quotient is the row's softmax-weighted average of the value column.
-/
import proofs.«103291_j85418309583433_2_alg».proof.Proof.Blocks
import proofs.«103291_j85418309583433_2_alg».proof.Proof.Gen.KernelIdeal.Value

noncomputable section

namespace Cert.KernelIdeal.Rows

open Cert.KernelIdeal Cert.KernelIdeal.Gen Cert.KernelIdeal.Pieces Cert.KernelIdeal.Pay Cert.KernelIdeal.Stream Cert.Attn
open Idealize.ShloMosaic Idealize.ShloMosaic.TcCoe Idealize.ShloMosaic.ValueIdx Idealize.SL.Sem Finset

variable (m : (ℓ : Loc nD τ sig) → Buf (Elt Ideal) ℓ) (c : Dev nD)

/-- The scratch after the first block of a tile, as the update over the reset values. -/
theorem comps_first (t : Fin cfg0.N) (h0 : t.val % 16 = 0) (h1 : ¬t.val % 16 = 15) :
    (outsAt0 m c t.val t.isLt).2.1 = k0_pay4 (iblk m c 0 t) (iblk m c 1 t)
    ∧ (outsAt0 m c t.val t.isLt).2.2.1 = newM (kv (grid0.coords t) (iblk m c 2 t)) (k0_pay4 (iblk m c 0 t) (iblk m c 1 t)) (iblk m c 3 t) (k0_pay5 (F := Ideal))
    ∧ (outsAt0 m c t.val t.isLt).2.2.2.1 = newL (kv (grid0.coords t) (iblk m c 2 t)) (k0_pay4 (iblk m c 0 t) (iblk m c 1 t)) (iblk m c 3 t) (k0_pay5 (F := Ideal)) (k0_pay6 (F := Ideal))
    ∧ (outsAt0 m c t.val t.isLt).2.2.2.2 = newAcc (kv (grid0.coords t) (iblk m c 2 t)) (k0_pay4 (iblk m c 0 t) (iblk m c 1 t)) (iblk m c 3 t) (k0_pay5 (F := Ideal)) (k0_pay7 (F := Ideal)) := by
  rw [outsAt0_A m c t h0 h1]
  dsimp only
  exact ⟨Pieces.anchor_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) ((hcond0_0 t).mpr h0) (fun h => h1 ((hcond0_1 t).mp h)), Pieces.max_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) ((hcond0_0 t).mpr h0) (fun h => h1 ((hcond0_1 t).mp h)), Pieces.den_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) ((hcond0_0 t).mpr h0) (fun h => h1 ((hcond0_1 t).mp h)), Pieces.num_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) ((hcond0_0 t).mpr h0) (fun h => h1 ((hcond0_1 t).mp h))⟩

/-- The scratch after a later block, as the update over what the point before left. -/
theorem comps_next (n : ℕ) (hn : n + 1 < cfg0.N) (h0 : ¬(n + 1) % 16 = 0) :
    (outsAt0 m c (n + 1) hn).2.1 = (outsAt0 m c n (Nat.lt_of_succ_lt hn)).2.1
    ∧ (outsAt0 m c (n + 1) hn).2.2.1 = newM (kv (grid0.coords ⟨n + 1, hn⟩) (iblk m c 2 ⟨n + 1, hn⟩)) (outsAt0 m c n (Nat.lt_of_succ_lt hn)).2.1 (iblk m c 3 ⟨n + 1, hn⟩) (outsAt0 m c n (Nat.lt_of_succ_lt hn)).2.2.1
    ∧ (outsAt0 m c (n + 1) hn).2.2.2.1 = newL (kv (grid0.coords ⟨n + 1, hn⟩) (iblk m c 2 ⟨n + 1, hn⟩)) (outsAt0 m c n (Nat.lt_of_succ_lt hn)).2.1 (iblk m c 3 ⟨n + 1, hn⟩) (outsAt0 m c n (Nat.lt_of_succ_lt hn)).2.2.1 (outsAt0 m c n (Nat.lt_of_succ_lt hn)).2.2.2.1
    ∧ (outsAt0 m c (n + 1) hn).2.2.2.2 = newAcc (kv (grid0.coords ⟨n + 1, hn⟩) (iblk m c 2 ⟨n + 1, hn⟩)) (outsAt0 m c n (Nat.lt_of_succ_lt hn)).2.1 (iblk m c 3 ⟨n + 1, hn⟩) (outsAt0 m c n (Nat.lt_of_succ_lt hn)).2.2.1 (outsAt0 m c n (Nat.lt_of_succ_lt hn)).2.2.2.2 := by
  by_cases h1 : (n + 1) % 16 = 15
  · rw [outsAt0_C m c ⟨n + 1, hn⟩ h0 h1]
    dsimp only
    exact ⟨rfl, Pieces.max_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2.1 (outsAt0 m c n (Nat.lt_of_succ_lt hn)).2.2.2.1 (outsAt0 m c n (Nat.lt_of_succ_lt hn)).2.2.2.2 (fun h => h0 ((hcond0_0 ⟨n + 1, hn⟩).mp h)) ((hcond0_1 ⟨n + 1, hn⟩).mpr h1), Pieces.den_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2.1 (outsAt0 m c n (Nat.lt_of_succ_lt hn)).2.2.2.1 (outsAt0 m c n (Nat.lt_of_succ_lt hn)).2.2.2.2 (fun h => h0 ((hcond0_0 ⟨n + 1, hn⟩).mp h)) ((hcond0_1 ⟨n + 1, hn⟩).mpr h1), Pieces.num_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2.1 (outsAt0 m c n (Nat.lt_of_succ_lt hn)).2.2.2.1 (outsAt0 m c n (Nat.lt_of_succ_lt hn)).2.2.2.2 (fun h => h0 ((hcond0_0 ⟨n + 1, hn⟩).mp h)) ((hcond0_1 ⟨n + 1, hn⟩).mpr h1)⟩
  · rw [outsAt0_B m c ⟨n + 1, hn⟩ h0 h1]
    dsimp only
    exact ⟨rfl, Pieces.max_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2.1 (outsAt0 m c n (Nat.lt_of_succ_lt hn)).2.2.2.1 (outsAt0 m c n (Nat.lt_of_succ_lt hn)).2.2.2.2 (fun h => h0 ((hcond0_0 ⟨n + 1, hn⟩).mp h)) (fun h => h1 ((hcond0_1 ⟨n + 1, hn⟩).mp h)), Pieces.den_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2.1 (outsAt0 m c n (Nat.lt_of_succ_lt hn)).2.2.2.1 (outsAt0 m c n (Nat.lt_of_succ_lt hn)).2.2.2.2 (fun h => h0 ((hcond0_0 ⟨n + 1, hn⟩).mp h)) (fun h => h1 ((hcond0_1 ⟨n + 1, hn⟩).mp h)), Pieces.num_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2.1 (outsAt0 m c n (Nat.lt_of_succ_lt hn)).2.2.2.1 (outsAt0 m c n (Nat.lt_of_succ_lt hn)).2.2.2.2 (fun h => h0 ((hcond0_0 ⟨n + 1, hn⟩).mp h)) (fun h => h1 ((hcond0_1 ⟨n + 1, hn⟩).mp h))⟩

/-- The output block the last point of a tile stores: the numerator scratch over the denominator scratch it leaves. -/
theorem comps_last (n : ℕ) (hn : n + 1 < cfg0.N) (h0 : ¬(n + 1) % 16 = 0) (h1 : (n + 1) % 16 = 15) :
    (outsAt0 m c (n + 1) hn).1 = k0_pay3 (outsAt0 m c (n + 1) hn).2.2.2.2 (outsAt0 m c (n + 1) hn).2.2.2.1 := by
  rw [outsAt0_C m c ⟨n + 1, hn⟩ h0 h1]
  dsimp only
  exact (Pieces.out_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2.1 (outsAt0 m c n (Nat.lt_of_succ_lt hn)).2.2.2.1 (outsAt0 m c n (Nat.lt_of_succ_lt hn)).2.2.2.2 (fun h => h0 ((hcond0_0 ⟨n + 1, hn⟩).mp h)) ((hcond0_1 ⟨n + 1, hn⟩).mpr h1)).trans (congrArg₂ (k0_pay3 (F := Ideal)) (Pieces.num_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2.1 (outsAt0 m c n (Nat.lt_of_succ_lt hn)).2.2.2.1 (outsAt0 m c n (Nat.lt_of_succ_lt hn)).2.2.2.2 (fun h => h0 ((hcond0_0 ⟨n + 1, hn⟩).mp h)) ((hcond0_1 ⟨n + 1, hn⟩).mpr h1)).symm (Pieces.den_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2.1 (outsAt0 m c n (Nat.lt_of_succ_lt hn)).2.2.1 (outsAt0 m c n (Nat.lt_of_succ_lt hn)).2.2.2.1 (outsAt0 m c n (Nat.lt_of_succ_lt hn)).2.2.2.2 (fun h => h0 ((hcond0_0 ⟨n + 1, hn⟩).mp h)) ((hcond0_1 ⟨n + 1, hn⟩).mpr h1)).symm)

variable (xx : Fin 8192 → Fin 512 → ℝ) (w : Fin 512 → Fin 512 → ℝ) (inp : Fin 8192 → Fin 512 → ℝ)

/-- The state of the scratch after point n. -/
def Inv (n : ℕ) (hn : n < cfg0.N) : Prop :=
  (∀ r g, (outsAt0 m c n hn).2.1 (ix2 r g) = ((proj xx w (rowOf n r) g / D : ℝ) : EReal))
  ∧ ∀ r : Fin 1024, ∃ μ : ℝ,
      (outsAt0 m c n hn).2.2.1 (ix2 r (0 : Fin 1)) = (μ : EReal)
      ∧ (outsAt0 m c n hn).2.2.2.1 (ix2 r (0 : Fin 1))
          = ((Z (ext (logit xx w inp (msk m c) (rowOf n r))) μ (512 * (n % 16) + 512) : ℝ) : EReal)
      ∧ ∀ f, (outsAt0 m c n hn).2.2.2.2 (ix2 r f)
          = ((Nm (ext (logit xx w inp (msk m c) (rowOf n r))) (ext (fun m' => inp m' f)) μ (512 * (n % 16) + 512) : ℝ) : EReal)

variable {xx w inp}

theorem inv_first (hd : RealData m c xx w inp) (t : Fin cfg0.N) (h0 : t.val % 16 = 0) : Inv m c xx w inp t.val t.isLt := by
  obtain ⟨e0, e1, e2, e3⟩ := comps_first m c t h0 (by omega)
  refine ⟨fun r g => ?_, fun r => ?_⟩
  · rw [e0]; exact anchor_row m c hd t r g
  · rw [e1, e2, e3]
    exact start_row m c hd t h0 _ _ _ _ r (fun g => anchor_row m c hd t r g) (reset_max_apply _) (reset_den_apply _)
      (fun f => reset_num_apply _)

theorem inv_next (hd : RealData m c xx w inp) (n : ℕ) (hn : n + 1 < cfg0.N) (h0 : ¬(n + 1) % 16 = 0)
    (ih : Inv m c xx w inp n (Nat.lt_of_succ_lt hn)) : Inv m c xx w inp (n + 1) hn := by
  obtain ⟨e0, e1, e2, e3⟩ := comps_next m c n hn h0
  obtain ⟨ia, ir⟩ := ih
  have hdiv : (n + 1) / 16 = n / 16 := by omega
  have hrow : ∀ r, rowOf (n + 1) r = rowOf n r := fun r => Fin.ext (by
    show (1024 * ((n + 1) / 16) + r.val) % 8192 = (1024 * (n / 16) + r.val) % 8192
    rw [hdiv])
  have hK : 512 * (n % 16) + 512 = 512 * ((n + 1) % 16) := by omega
  refine ⟨fun r g => ?_, fun r => ?_⟩
  · rw [e0, hrow]; exact ia r g
  · obtain ⟨μo, im, il, iacc⟩ := ir r
    rw [e1, e2, e3]
    rw [hK, ← hrow r] at il iacc
    exact advance_row m c hd ⟨n + 1, hn⟩ _ _ _ _ r μo (fun g => by rw [hrow]; exact ia r g) im il iacc

/-- The state holds after every point. -/
theorem inv_all (hd : RealData m c xx w inp) : ∀ (n : ℕ) (hn : n < cfg0.N), Inv m c xx w inp n hn := by
  intro n
  induction n with
  | zero => intro hn; exact inv_first m c hd ⟨0, hn⟩ rfl
  | succ n ih =>
    intro hn
    by_cases h0 : (n + 1) % 16 = 0
    · exact inv_first m c hd ⟨n + 1, hn⟩ h0
    · exact inv_next m c hd n hn h0 (ih (Nat.lt_of_succ_lt hn))

/-- What the last point of a row tile stores at (r, f): the attention output of the tile's row r at feature f. -/
theorem out_entry (hd : RealData m c xx w inp) (t : Fin cfg0.N) (h15 : t.val % 16 = 15) (r : Fin 1024) (f : Fin 512) :
    (outsAt0 m c t.val t.isLt).1 (ix2 r f) = ((out xx w inp (msk m c) (rowOf t.val r) f : ℝ) : EReal) := by
  obtain ⟨n, hn⟩ := t
  cases n with
  | zero => exact absurd (show 0 % 16 = 15 from h15) (by decide)
  | succ n =>
    have h15' : (n + 1) % 16 = 15 := h15
    obtain ⟨-, ir⟩ := inv_all m c hd (n + 1) hn
    obtain ⟨μ, -, il, iacc⟩ := ir r
    have hK : 512 * ((n + 1) % 16) + 512 = 8192 := by omega
    rw [hK] at il iacc
    show (outsAt0 m c (n + 1) hn).1 (ix2 r f) = _
    rw [comps_last m c n hn (by omega) h15']
    rw [out_real _ _ r f _ _ (ne_of_gt (Z_pos _ μ 8192 (by decide))) (iacc f) il]
    unfold out
    rw [stream_done]

end Cert.KernelIdeal.Rows

end
-- ==== Proof.Spec.lean ====
/-
  The function both programs compute, stated once over extended-real arrays: where the three float arrays hold real
  numbers, the result array at (n, f) is the attention output of query n at feature f over those reals, the mask set
  where the integer array's entry is positive.
-/
import proofs.«103291_j85418309583433_2_alg».proof.Proof.Attn
import Idealize.ShloMosaic.Lib.ValueIdx

noncomputable section

namespace Cert.Attn

open Idealize.ShloMosaic Idealize.ShloMosaic.ValueIdx

/-- Every entry of the array is a real number. -/
def Finite {s : Shape} (X : s.Idx → EReal) : Prop := ∀ i, ∃ r : ℝ, X i = (r : EReal)

/-- The real matrix a two-dimensional array holds. -/
def realOf {a b : ℕ} (X : (⟨2, ![a, b]⟩ : Shape).Idx → EReal) (n : Fin a) (k : Fin b) : ℝ := (X (ix2 n k)).toReal

theorem coe_realOf {a b : ℕ} (X : (⟨2, ![a, b]⟩ : Shape).Idx → EReal) (h : Finite X) (n : Fin a) (k : Fin b) :
    X (ix2 n k) = ((realOf X n k : ℝ) : EReal) := by
  obtain ⟨r, hr⟩ := h (ix2 n k)
  rw [realOf, hr, EReal.toReal_coe]

/-- Where the mask is set: the integer array's entry is positive. -/
def maskOf (X2 : (⟨2, ![8192, 8192]⟩ : Shape).Idx → BitVec 32) (n m' : Fin 8192) : Bool :=
  decide (IntOp.cmpi .sgt (X2 (ix2 n m')) 0#32 = 1#1)

/-- The attention output over the real matrices and mask (n, f ↦ out), as an array of extended reals. -/
def arrayOf (xx : Fin 8192 → Fin 512 → ℝ) (w : Fin 512 → Fin 512 → ℝ) (inp : Fin 8192 → Fin 512 → ℝ)
    (mk : Fin 8192 → Fin 8192 → Bool) : (⟨2, ![8192, 512]⟩ : Shape).Idx → EReal :=
  fun i => ((out xx w inp mk ⟨(i 0).val, (i 0).isLt⟩ ⟨(i 1).val, (i 1).isLt⟩ : ℝ) : EReal)

/-- The result array as a function of the four argument arrays. -/
def G (X0 X1 : (⟨2, ![8192, 512]⟩ : Shape).Idx → EReal) (X2 : (⟨2, ![8192, 8192]⟩ : Shape).Idx → BitVec 32)
    (X3 : (⟨2, ![512, 512]⟩ : Shape).Idx → EReal) : (⟨2, ![8192, 512]⟩ : Shape).Idx → EReal :=
  arrayOf (realOf X0) (realOf X3) (realOf X1) (maskOf X2)

end Cert.Attn

end
-- ==== Proof.KernelValue.lean ====
/-
  The kernel's result array. The output window's block is written back once per row tile, after the tile's last
  column block, and holds the tile's 1024 rows of the attention output; the eight tiles' blocks are rows
  1024·i … 1024·i + 1023 of the result array and together cover it, so after the run the array is the attention output
  of the argument arrays, index by index.
-/
import proofs.«103291_j85418309583433_2_alg».proof.Proof.Invariant
import proofs.«103291_j85418309583433_2_alg».proof.Proof.Spec

noncomputable section

namespace Cert.KernelIdeal.Rows

open Cert.KernelIdeal Cert.KernelIdeal.Gen Cert.KernelIdeal.Pieces Cert.KernelIdeal.Pay Cert.KernelIdeal.Stream Cert.Attn
open Idealize.ShloMosaic Idealize.ShloMosaic.TcCoe Idealize.ShloMosaic.ValueIdx Idealize.SL.Sem Finset
open Idealize.ShloMosaic.Pipeline (Dat)

variable (m : (ℓ : Loc nD τ sig) → Buf (Elt Ideal) ℓ) (ρ : Dev nD → PrngReg) (c : Dev nD)
variable {xx : Fin 8192 → Fin 512 → ℝ} {w : Fin 512 → Fin 512 → ℝ} {inp : Fin 8192 → Fin 512 → ℝ}

/-- What a tile's last point stores, entry by entry of its block, is the attention output at the entry's place in
    the result array: block row r of tile t/16 is array row 1024·(t/16) + r. -/
theorem out_blk (hd : RealData m c xx w inp) (t : Fin cfg0.N) (h15 : t.val % 16 = 15) (y : S1024x512.Idx) :
    (outsAt0 m c t.val t.isLt).1 y = arrayOf xx w inp (msk m c) (((cfg0.win 4).blk t).view.emb y) := by
  obtain ⟨r, f, rfl⟩ : ∃ (r : Fin 1024) (f : Fin 512), y = ix2 r f := ⟨y 0, y 1, eq_ix2 y⟩
  obtain ⟨-, -, -, -, -, -, -, -, e0, e1, -⟩ := idx_facts t
  rw [out_entry m c hd t h15 r f]
  unfold arrayOf
  have hr : (⟨((((cfg0.win 4).blk t).view.emb (ix2 r f)) 0).val, ((((cfg0.win 4).blk t).view.emb (ix2 r f)) 0).isLt⟩ : Fin 8192) = rowOf t.val r :=
    Fin.ext (by
      show win0_4.index t (0 : Fin 2) * 1024 + 1 * r.val = (rowOf t.val r).val
      rw [e0, rowOf_val]; omega)
  have hf : (⟨((((cfg0.win 4).blk t).view.emb (ix2 r f)) 1).val, ((((cfg0.win 4).blk t).view.emb (ix2 r f)) 1).isLt⟩ : Fin 512) = f :=
    Fin.ext (by
      show win0_4.index t (1 : Fin 2) * 512 + 1 * f.val = f.val
      rw [e1]; omega)
  rw [hr, hf]

/-- What a flushing point writes back is its block of the attention output. -/
theorem flushed_eq (hd : RealData m c xx w inp) (t : Fin cfg0.N) (hf : (cfg0.win 4).flush t = true) :
    (dats m 0 c).flushed 4 t = ((cfg0.win 4).blk t).view.read (Elt Ideal) (arrayOf xx w inp (msk m c)) := by
  have h15 : t.val % 16 = 15 := (flush0_4 t).mp hf
  rw [Value.flushed4]
  funext j
  exact out_blk m c hd t h15 j

/-- An index of the result array is in point t's block iff each coordinate is in the block's range on its axis. -/
theorem mem_blk (t : Fin cfg0.N) (i : S8192x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v1).slice (win0_4.rect t)).set ↔ _
  rw [View.set_slice_whole, Rect.mem_set_unit]
  exact Iff.rfl

/-- Every index of the result array is in the block of its tile's last point. -/
theorem cover (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  have hN : cfg0.N = 128 := N_0
  have hlt : 16 * ((i 0).val / 1024) + 15 < cfg0.N := lt_of_lt_of_eq (by omega : 16 * ((i 0).val / 1024) + 15 < 128) hN.symm
  refine ⟨⟨16 * ((i 0).val / 1024) + 15, hlt⟩, (flush0_4 _).mpr (by show (16 * ((i 0).val / 1024) + 15) % 16 = 15; omega), ?_⟩
  rw [mem_blk]
  obtain ⟨-, -, -, -, -, -, -, -, e0, e1, -⟩ := idx_facts ⟨16 * ((i 0).val / 1024) + 15, hlt⟩
  intro a
  match a with
  | ⟨0, _⟩ =>
    show win0_4.index ⟨16 * ((i 0).val / 1024) + 15, hlt⟩ (0 : Fin 2) * 1024 ≤ (i 0).val ∧ (i 0).val < win0_4.index ⟨16 * ((i 0).val / 1024) + 15, hlt⟩ (0 : Fin 2) * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_4.index ⟨16 * ((i 0).val / 1024) + 15, hlt⟩ (1 : Fin 2) * 512 ≤ (i 1).val ∧ (i 1).val < win0_4.index ⟨16 * ((i 0).val / 1024) + 15, hlt⟩ (1 : Fin 2) * 512 + 512
    rw [e1]
    omega

/-- The result array after the run. -/
theorem final (hd : RealData m c xx w inp) : (dats m 0 c).arrAt 4 cfg0.N = arrayOf xx w inp (msk m c) :=
  (dats m 0 c).arrAt_eq_of_cover 4 (arrayOf xx w inp (msk m c)) (fun t hf => flushed_eq m c hd t hf) (cover)

/-- Over finite float arguments the argument arrays hold real matrices. -/
theorem realData_of_finite
    (f0 : Finite (m ((c : Thread nD τ).loc main_arg0) : S8192x512.Idx → EReal))
    (f1 : Finite (m ((c : Thread nD τ).loc main_arg1) : S8192x512.Idx → EReal))
    (f3 : Finite (m ((c : Thread nD τ).loc main_arg3) : S512x512.Idx → EReal)) :
    RealData m c (realOf (m ((c : Thread nD τ).loc main_arg0))) (realOf (m ((c : Thread nD τ).loc main_arg3)))
      (realOf (m ((c : Thread nD τ).loc main_arg1))) :=
  ⟨coe_realOf _ f0, coe_realOf _ f1, coe_realOf _ f3⟩

/-- The result array after the run, over finite arguments, as the one function of the four argument arrays. -/
theorem final_G
    (f0 : Finite (m ((c : Thread nD τ).loc main_arg0) : S8192x512.Idx → EReal))
    (f1 : Finite (m ((c : Thread nD τ).loc main_arg1) : S8192x512.Idx → EReal))
    (f3 : Finite (m ((c : Thread nD τ).loc main_arg3) : S512x512.Idx → EReal)) :
    (dats m 0 c).arrAt 4 cfg0.N = G (m ((c : Thread nD τ).loc main_arg0)) (m ((c : Thread nD τ).loc main_arg1))
      (m ((c : Thread nD τ).loc main_arg2)) (m ((c : Thread nD τ).loc main_arg3)) :=
  final m c (realData_of_finite m c f0 f1 f3)

/-- The run, read: the result array at the attention output of the argument arrays, the arguments unchanged. -/
theorem run_G
    (hf : ∀ c : Dev nD, Finite (m ((c : Thread nD τ).loc main_arg0) : S8192x512.Idx → EReal)
      ∧ Finite (m ((c : Thread nD τ).loc main_arg1) : S8192x512.Idx → EReal)
      ∧ Finite (m ((c : Thread nD τ).loc main_arg3) : S512x512.Idx → EReal)) :
    θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_G m c (hf c).1 (hf c).2.1 (hf c).2.2), (h c).2⟩)
    (Value.run_blocks m ρ)

end Cert.KernelIdeal.Rows

end
-- ==== Proof.Consts.lean ====
/-
  The reference's float literals as the extended reals they denote: the temperature's single-precision word is the
  binary fraction 9395241/2²⁷, the mask fill's word is -2³², the reduction's initial word is -∞ and the sum's is 0.
-/
import proofs.«103291_j85418309583433_2_alg».proof.Proof.Attn

noncomputable section

namespace Cert.Consts

open Idealize.ShloMosaic

theorem ofBits_temperature : Ideal.ofBits .f32 0x3D8F5C29#32 = ((Cert.Attn.D : ℝ) : EReal) := by
  simp [Ideal.ofBits, Ideal.ieee, -EReal.coe_mul, Cert.Attn.D]; norm_num

theorem ofBits_fill : Ideal.ofBits .f32 0xCF800000#32 = ((-4294967296 : ℝ) : EReal) := by
  simp [Ideal.ofBits, Ideal.ieee, -EReal.coe_mul]; norm_num

theorem ofBits_neg_inf : Ideal.ofBits .f32 0xFF800000#32 = ⊥ := by simp [Ideal.ofBits, Ideal.ieee]

theorem ofBits_zero : Ideal.ofBits .f32 0x00000000#32 = 0 := by simp [Ideal.ofBits, Ideal.ieee]

end Cert.Consts

end
-- ==== Proof.RefValue.lean ====
/-
  The reference, read entry by entry over real arguments. Its stages, in order: the projection xx·w; the scores
  against the transposed keys; the mask fill -2³² where the mask is not set; the division by the temperature — the
  logits; the row maximum M (a real: a maximum of 8192 reals, folded from -∞, against -∞ once more); the exponentials
  e^{x-M}; their row sum S; the normalised weights e^{x-M}/S; and the weights times the value rows — the softmax-weighted
  average of the value column, the attention output.
-/
import proofs.«103291_j85418309583433_2_alg».proof.Proof.Gen.ReferenceIdeal.Read
import proofs.«103291_j85418309583433_2_alg».proof.Proof.Spec
import proofs.«103291_j85418309583433_2_alg».proof.Proof.Consts

noncomputable section

namespace Cert.ReferenceIdeal.RefValue

open Cert.ReferenceIdeal Cert.ReferenceIdeal.Gen Cert.ReferenceIdeal.Read Cert.Attn
open Idealize.ShloMosaic Idealize.ShloMosaic.ValueIdx Finset

/-! ## Where each stage reads its operands -/

theorem idx_l0 (n : Fin 8192) (g k : Fin 512) : lidx_main_v0 (ix2 n g) k = ix2 n k :=
  funext fun a => by match a with | ⟨0, _⟩ => rfl | ⟨1, _⟩ => rfl
theorem idx_r0 (n : Fin 8192) (g k : Fin 512) : ridx_main_v0 (ix2 n g) k = ix2 k g :=
  funext fun a => by match a with | ⟨0, _⟩ => rfl | ⟨1, _⟩ => rfl
theorem idx_1 (k : Fin 512) (m' : Fin 8192) : idx_main_v1 (ix2 k m') = ix2 m' k :=
  funext fun a => by match a with | ⟨0, _⟩ => rfl | ⟨1, _⟩ => rfl
theorem idx_l2 (n m' : Fin 8192) (k : Fin 512) : lidx_main_v2 (ix2 n m') k = ix2 n k :=
  funext fun a => by match a with | ⟨0, _⟩ => rfl | ⟨1, _⟩ => rfl
theorem idx_r2 (n m' : Fin 8192) (k : Fin 512) : ridx_main_v2 (ix2 n m') k = ix2 k m' :=
  funext fun a => by match a with | ⟨0, _⟩ => rfl | ⟨1, _⟩ => rfl
theorem idx_12 (n m' : Fin 8192) : idx_main_v12 (ix2 n m') = ix2 n (0 : Fin 1) :=
  funext fun a => by match a with | ⟨0, _⟩ => rfl | ⟨1, _⟩ => rfl
theorem idx_11 (n : Fin 8192) (z : Fin 1) : idx_main_v11 (ix2 n z) = ix1 n :=
  funext fun a => by match a with | ⟨0, _⟩ => rfl
theorem idx_17 (n m' : Fin 8192) : idx_main_v17 (ix2 n m') = ix2 n (0 : Fin 1) :=
  funext fun a => by match a with | ⟨0, _⟩ => rfl | ⟨1, _⟩ => rfl
theorem idx_16 (n : Fin 8192) (z : Fin 1) : idx_main_v16 (ix2 n z) = ix1 n :=
  funext fun a => by match a with | ⟨0, _⟩ => rfl
theorem idx_15 (n k : Fin 8192) : idx_main_v15 (ix1 n) k = ix2 n k :=
  funext fun a => by match a with | ⟨0, _⟩ => rfl | ⟨1, _⟩ => rfl
theorem idx_l19 (n : Fin 8192) (f : Fin 512) (k : Fin 8192) : lidx_main_v19 (ix2 n f) k = ix2 n k :=
  funext fun a => by match a with | ⟨0, _⟩ => rfl | ⟨1, _⟩ => rfl
theorem idx_r19 (n : Fin 8192) (f : Fin 512) (k : Fin 8192) : ridx_main_v19 (ix2 n f) k = ix2 k f :=
  funext fun a => by match a with | ⟨0, _⟩ => rfl | ⟨1, _⟩ => rfl

theorem select_coe (cnd : BitVec 1) (x y : ℝ) :
    Scalar.select cnd (x : EReal) (y : EReal) = ((if cnd = 1#1 then x else y : ℝ) : EReal) := by
  unfold Scalar.select
  by_cases h : cnd = 1#1
  · have h' : cnd = 1 := h
    rw [if_pos h', if_pos h]
  · have h' : ¬cnd = 1 := h
    rw [if_neg h', if_neg h]

variable (x0 x1 : (⟨S8192x512, .f32⟩ : BufTy).Contents (Elt Ideal)) (x2 : (⟨S8192x8192, .i32⟩ : BufTy).Contents (Elt Ideal))
  (x3 : (⟨S512x512, .f32⟩ : BufTy).Contents (Elt Ideal))
variable {xx : Fin 8192 → Fin 512 → ℝ} {w : Fin 512 → Fin 512 → ℝ} {inp : Fin 8192 → Fin 512 → ℝ}

/-- The three float arguments hold real numbers. -/
structure RealArgs (xx : Fin 8192 → Fin 512 → ℝ) (w : Fin 512 → Fin 512 → ℝ) (inp : Fin 8192 → Fin 512 → ℝ) : Prop where
  h0 : ∀ n k, x0 (ix2 n k) = (xx n k : EReal)
  h1 : ∀ n g, x1 (ix2 n g) = (inp n g : EReal)
  h3 : ∀ k g, x3 (ix2 k g) = (w k g : EReal)

variable (hd : RealArgs x0 x1 x3 xx w inp)
include hd

/-- The projection stage. -/
theorem proj_apply (n : Fin 8192) (g : Fin 512) :
    val_main_v0 (F := Ideal) x0 x3 (ix2 n g) = ((proj xx w n g : ℝ) : EReal) := by
  rw [val_main_v0_apply]
  simp only [idx_l0, idx_r0, hd.h0, hd.h3, ← EReal.coe_mul, ← coe_sum]
  rfl

/-- The score stage. -/
theorem score_apply (n m' : Fin 8192) :
    val_main_v2 (F := Ideal) x0 x1 x3 (ix2 n m') = ((∑ g, proj xx w n g * inp m' g : ℝ) : EReal) := by
  rw [val_main_v2_apply]
  simp only [idx_l2, idx_r2, proj_apply x0 x1 x3 hd, val_main_v1_apply, idx_1, hd.h1, ← EReal.coe_mul, ← coe_sum]

/-- The logits: masked scores over the temperature. -/
theorem logits (n m' : Fin 8192) :
    val_main_v7 (F := Ideal) x0 x1 x2 x3 (ix2 n m') = ((logit xx w inp (maskOf x2) n m' : ℝ) : EReal) := by
  rw [val_main_v7_apply, val_main_v5_apply, val_main_v4_apply, val_main_v3_apply, val_main_c_apply,
    val_main_call0_v0_apply, val_main_cst_apply, val_main_v6_apply, val_main_cst_0_apply, score_apply x0 x1 x3 hd]
  rw [Ideal.hostDivf_def, Ideal.ofBits_def, Ideal.ofBits_def, Consts.ofBits_fill, Consts.ofBits_temperature, select_coe,
    div_coe_coe _ _ D_ne]
  unfold logit maskOf
  simp only [decide_eq_true_eq]

/-- The row maximum is a real number. -/
theorem rowmax_real (n : Fin 8192) : ∃ M : ℝ, val_main_v10 (F := Ideal) x0 x1 x2 x3 (ix1 n) = (M : EReal) := by
  obtain ⟨ρ, hρ⟩ := fold_max_coe (univ : Finset (Fin 8192)) univ_nonempty (logit xx w inp (maskOf x2) n)
  refine ⟨ρ, ?_⟩
  have hR : S8192x8192.Reduces [1] S8192 := by decide
  rw [val_main_v10_apply, val_main_v9_apply, val_main_cst_2_apply]
  unfold val_main_v8
  rw [Host.reduce_eq_fold_single FloatOps.maximumf _ _ reducesTo_S8192x8192_S8192_d1 hR h_S_ (ix1 n)]
  have hfun : (val_main_v7 (F := Ideal) x0 x1 x2 x3 ∘ hR.lift (ix1 n))
      = fun k : Fin 8192 => ((logit xx w inp (maskOf x2) n k : ℝ) : EReal) :=
    funext fun k => (congrArg (val_main_v7 (F := Ideal) x0 x1 x2 x3)
      (funext fun a => Fin.ext (by match a with | ⟨0, _⟩ => rfl | ⟨1, _⟩ => rfl))).trans (logits x0 x1 x2 x3 hd n k)
  rw [hfun]
  show max (Ideal.ofBits .f32 0xFF800000#32)
    ((univ : Finset (Fin 8192)).fold max (Ideal.ofBits .f32 0xFF800000#32) (fun k => ((logit xx w inp (maskOf x2) n k : ℝ) : EReal))) = _
  rw [Consts.ofBits_neg_inf, hρ]
  exact max_eq_right bot_le

/-- The exponentials of the logits less the row maximum. -/
theorem exps (n : Fin 8192) (M : ℝ) (hM : val_main_v10 (F := Ideal) x0 x1 x2 x3 (ix1 n) = (M : EReal)) (k : Fin 8192) :
    val_main_v14 (F := Ideal) x0 x1 x2 x3 (ix2 n k) = ((Real.exp (logit xx w inp (maskOf x2) n k - M) : ℝ) : EReal) := by
  rw [val_main_v14_apply, val_main_v13_apply, logits x0 x1 x2 x3 hd, val_main_v12_apply, idx_12, val_main_v11_apply, idx_11, hM,
    Ideal.hostUnary_exp_def, Ideal.subf_def, exp_coe_sub]

/-- Their row sum. -/
theorem sums (n : Fin 8192) (M : ℝ) (hM : val_main_v10 (F := Ideal) x0 x1 x2 x3 (ix1 n) = (M : EReal)) :
    val_main_v15 (F := Ideal) x0 x1 x2 x3 (ix1 n) = ((∑ k, Real.exp (logit xx w inp (maskOf x2) n k - M) : ℝ) : EReal) := by
  rw [val_main_v15_apply, val_main_cst_3_apply]
  simp only [idx_15, exps x0 x1 x2 x3 hd n M hM]
  rw [Ideal.ofBits_def, Consts.ofBits_zero, zero_add, ← coe_sum]

/-- The normalised weights. -/
theorem weights (n : Fin 8192) (M : ℝ) (hM : val_main_v10 (F := Ideal) x0 x1 x2 x3 (ix1 n) = (M : EReal)) (k : Fin 8192) :
    val_main_v18 (F := Ideal) x0 x1 x2 x3 (ix2 n k)
      = ((Real.exp (logit xx w inp (maskOf x2) n k - M) / ∑ k', Real.exp (logit xx w inp (maskOf x2) n k' - M) : ℝ) : EReal) := by
  have hS : (∑ k', Real.exp (logit xx w inp (maskOf x2) n k' - M)) ≠ 0 :=
    ne_of_gt (sum_pos (fun k' _ => Real.exp_pos _) univ_nonempty)
  rw [val_main_v18_apply, exps x0 x1 x2 x3 hd n M hM, val_main_v17_apply, idx_17, val_main_v16_apply, idx_16,
    sums x0 x1 x2 x3 hd n M hM, Ideal.hostDivf_def, div_coe_coe _ _ hS]

/-- The reference's result at (n, f): the attention output. -/
theorem result_apply (n : Fin 8192) (f : Fin 512) :
    val_main_v19 (F := Ideal) x0 x1 x2 x3 (ix2 n f) = ((out xx w inp (maskOf x2) n f : ℝ) : EReal) := by
  obtain ⟨M, hM⟩ := rowmax_real x0 x1 x2 x3 hd n
  rw [val_main_v19_apply]
  simp only [idx_l19, idx_r19, weights x0 x1 x2 x3 hd n M hM, hd.h1, ← EReal.coe_mul, ← coe_sum]
  exact congrArg (fun z : ℝ => (z : EReal)) (sum_normalised (logit xx w inp (maskOf x2) n) (fun m' => inp m' f) M)

/-- The reference's result array. -/
theorem result_eq : val_main_v19 (F := Ideal) x0 x1 x2 x3 = arrayOf xx w inp (maskOf x2) := by
  funext i
  obtain ⟨n, f, rfl⟩ : ∃ (n : Fin 8192) (f : Fin 512), i = ix2 n f := ⟨i 0, i 1, eq_ix2 i⟩
  rw [result_apply x0 x1 x2 x3 hd n f]
  rfl

omit hd in
/-- Over finite float arguments the reference's result array is the one function of the four argument arrays. -/
theorem result_G (f0 : Finite (x0 : S8192x512.Idx → EReal)) (f1 : Finite (x1 : S8192x512.Idx → EReal))
    (f3 : Finite (x3 : S512x512.Idx → EReal)) : val_main_v19 (F := Ideal) x0 x1 x2 x3 = G x0 x1 x2 x3 :=
  result_eq x0 x1 x2 x3 ⟨coe_realOf _ f0, coe_realOf _ f1, coe_realOf _ f3⟩

end Cert.ReferenceIdeal.RefValue

end
-- ==== Proof.Finiteness.lean ====
/-
  The precondition, read back: it says, of each of the three float arguments, that every entry's absolute value is
  below +∞ — the conjunction of three all-reductions — so every entry of those arrays is a real number (an extended
  real whose absolute value is below +∞ is neither infinity).
-/
import proofs.«103291_j85418309583433_2_alg».proof.Pre_finite_inputs
import proofs.«103291_j85418309583433_2_alg».proof.Proof.Gen.Pre_finite_inputs
import proofs.«103291_j85418309583433_2_alg».proof.Proof.Spec
import Idealize.ShloMosaic.Lib.ReduceAll
import Idealize.ShloMosaic.Lib.ValueIdx
import Idealize.ShloMosaic.PureOps.Ideal.Laws

noncomputable section

namespace Cert.Finiteness

open Idealize.ShloMosaic Cert.Pre_finite_inputs Cert.Attn

instance : Subsingleton S_.Idx := ⟨fun a b => funext fun d => d.elim0⟩

theorem ofBits_pos_inf : Ideal.ofBits .f32 0x7F800000#32 = ⊤ := by simp [Ideal.ofBits, Ideal.ieee]

/-- An extended real whose absolute value compares below +∞ is a real number. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  rw [ofBits_pos_inf] at h
  induction x using EReal.rec with
  | bot => exact absurd h (by simp [Ideal.cmpf_def, Ideal.absf_def, Ideal.cmp])
  | top => exact absurd h (by simp [Ideal.cmpf_def, Ideal.absf_def, Ideal.cmp])
  | coe r => exact ⟨r, rfl⟩

/-- Under the precondition the three float arguments hold real numbers. -/
theorem finite_of_pre (x0 x1 : FVec Ideal S8192x512 .f32) (x2 : IVec S8192x8192 32) (x3 : FVec Ideal S512x512 .f32)
    (h : fn (F := Ideal) x0 x1 x2 x3 = fun _ => 1#1) :
    Finite (x0 : S8192x512.Idx → EReal) ∧ Finite (x1 : S8192x512.Idx → EReal) ∧ Finite (x3 : S512x512.Idx → EReal) := by
  have h' := congrFun h ValueIdx.ix0
  dsimp only [fn] at h'
  have h2 : IntOp.andi (IntOp.andi
      (Host.reduce IntOp.andi (cmpf .olt (Host.absf x0) (broadcastInDim S8192x512 ![] Facts.bcast_S_S8192x512 (constant S_ .f32 0x7F800000#32)))
        (constantI S_ 1 1#1) Facts.reducesTo_S8192x512_S_d0_1 Facts.h_S_ ValueIdx.ix0)
      (Host.reduce IntOp.andi (cmpf .olt (Host.absf x1) (broadcastInDim S8192x512 ![] Facts.bcast_S_S8192x512 (constant S_ .f32 0x7F800000#32)))
        (constantI S_ 1 1#1) Facts.reducesTo_S8192x512_S_d0_1 Facts.h_S_ ValueIdx.ix0))
      (Host.reduce IntOp.andi (cmpf .olt (Host.absf x3) (broadcastInDim S512x512 ![] Facts.bcast_S_S512x512 (constant S_ .f32 0x7F800000#32)))
        (constantI S_ 1 1#1) Facts.reducesTo_S512x512_S_d0_1 Facts.h_S_ ValueIdx.ix0) = 1#1 := h'
  rw [IntOp.andi_eq_one, IntOp.andi_eq_one] at h2
  obtain ⟨⟨hA, hB⟩, hC⟩ := h2
  exact ⟨fun i => real_of_abs_lt (x0 i) (Host.reduce_andi_all _ _ _ _ _ hA i),
    fun i => real_of_abs_lt (x1 i) (Host.reduce_andi_all _ _ _ _ _ hB i),
    fun i => real_of_abs_lt (x3 i) (Host.reduce_andi_all _ _ _ _ _ hC i)⟩

end Cert.Finiteness

end
-- ==== Proof.lean ====
/-
  Masked attention with a temperature, computed in one streaming pass, against the textbook formula.

  The kernel projects each block of 1024 query rows by the weight, scales by the reciprocal of the temperature,
  and sweeps the 8192 keys in 16 blocks of 512: per block it forms the scores (the fill where the mask is not set),
  raises a running row maximum, rescales a running denominator and numerator by e^{old maximum - new maximum} and adds
  the block's ∑ e^{s-max} and ∑ e^{s-max}·v; after the last block it stores numerator over denominator. The
  reference forms all 8192 logits of a row (masked scores over the temperature), subtracts the row maximum,
  exponentiates, normalises by the row sum and multiplies by the values.

  Over the extended reals, with finite inputs, both are the softmax-weighted average (∑ₘ e^{xₘ} vₘ)/(∑ₘ e^{xₘ}) of the
  value column under the row's logits x: a common shift of the logits cancels in the quotient, so neither the
  reference's row maximum nor the kernel's running maximum matters beyond being a real number, and the kernel's
  rescaling keeps its partial sums equal to ∑ e^{x-μ} and ∑ e^{x-μ} v under its current shift μ. The kernel's
  logits are the reference's because its two folded constants are named as the exact values the reference computes
  with: the scale as the reciprocal of the reference's temperature word, the fill as the reference's fill word over
  that temperature; a product of reals by 1/D is the quotient by D. Finiteness of the inputs is what makes every
  score a real number, so that real arithmetic (distributing the scale over the contraction, splitting
  exponentials of differences) applies.
-/
import proofs.«103291_j85418309583433_2_alg».proof.Defs
import proofs.«103291_j85418309583433_2_alg».proof.Proof.Gen.Kernel
import proofs.«103291_j85418309583433_2_alg».proof.Proof.Gen.Kernel.Skeleton
import proofs.«103291_j85418309583433_2_alg».proof.Proof.Gen.Kernel.Launch
import proofs.«103291_j85418309583433_2_alg».proof.Proof.Gen.Kernel.Points
import proofs.«103291_j85418309583433_2_alg».proof.Proof.Gen.Kernel.Frame
import proofs.«103291_j85418309583433_2_alg».proof.Proof.Gen.KernelIdeal
import proofs.«103291_j85418309583433_2_alg».proof.Proof.Gen.KernelIdeal.Skeleton
import proofs.«103291_j85418309583433_2_alg».proof.Proof.Gen.KernelIdeal.Launch
import proofs.«103291_j85418309583433_2_alg».proof.Proof.Gen.KernelIdeal.Points
import proofs.«103291_j85418309583433_2_alg».proof.Proof.Gen.KernelIdeal.Frame
import proofs.«103291_j85418309583433_2_alg».proof.Proof.Gen.KernelIdeal.Value
import proofs.«103291_j85418309583433_2_alg».proof.Proof.Gen.ReferenceIdeal.Run
import proofs.«103291_j85418309583433_2_alg».proof.Proof.Gen.ReferenceIdeal.Read
import proofs.«103291_j85418309583433_2_alg».proof.Proof.Gen.ReferenceIdeal
import proofs.«103291_j85418309583433_2_alg».proof.Proof.Gen.Pre_finite_inputs
import proofs.«103291_j85418309583433_2_alg».proof.Proof.KernelValue
import proofs.«103291_j85418309583433_2_alg».proof.Proof.RefValue
import proofs.«103291_j85418309583433_2_alg».proof.Proof.Finiteness
import Idealize.ShloMosaic.Adequacy
import Idealize.ShloMosaic.Init

noncomputable section

namespace Cert.Proof

open Idealize.ShloMosaic Idealize.SL.Sem Idealize.ShloMosaic.TcCoe Cert.Attn

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two named constants denote, at the ideal instance, the values the table gives them. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "neg_fill" .f32 0xD1649249#32 ((-576460752303423488 / 9395241 : ℝ) : EReal) rfl⟩

/-- Both programs end with the result array at the attention output of the argument arrays. -/
theorem algebraic : Cert.algebraic_KernelIdeal_ReferenceIdeal := by
  intro m ρ m' ρ' hpre hagree
  have hfin : ∀ c : Dev Cert.KernelIdeal.nD,
      Finite (m ((c : Thread Cert.KernelIdeal.nD Cert.KernelIdeal.τ).loc Cert.KernelIdeal.main_arg0) : Cert.KernelIdeal.S8192x512.Idx → EReal)
      ∧ Finite (m ((c : Thread Cert.KernelIdeal.nD Cert.KernelIdeal.τ).loc Cert.KernelIdeal.main_arg1) : Cert.KernelIdeal.S8192x512.Idx → EReal)
      ∧ Finite (m ((c : Thread Cert.KernelIdeal.nD Cert.KernelIdeal.τ).loc Cert.KernelIdeal.main_arg3) : Cert.KernelIdeal.S512x512.Idx → EReal) :=
    fun c => Cert.Finiteness.finite_of_pre _ _ _ _ (hpre c)
  refine ⟨_, Cert.KernelIdeal.Rows.run_G m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2]
  exact Cert.ReferenceIdeal.RefValue.result_G _ _ _ _ (hfin c).1 (hfin c).2.1 (hfin c).2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
